-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  main_v73

def fn_part3 {F : FTy → Type} [FloatOps F] (main_arg11 : FVec F S1024x1024 .f32) (main_arg12 : FVec F S1024x1024 .f32) (main_arg13 : FVec F S1024x1024 .f32) (main_arg14 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024x1024 .f32) (main_arg13 : FVec F S1024x1024 .f32) (main_arg14 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024x1024 .f32) (main_arg13 : FVec F S1024x1024 .f32) (main_arg14 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024x1024 .f32) (main_arg13 : FVec F S1024x1024 .f32) (main_arg14 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 27
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v6_4 : Ref sig .tc := ⟨.hbm, 25, rfl⟩
abbrev main_v6_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S4096x1024.size a
  hwx0_7 : ∀ i : grid0.Coords, EltTy.bits .f32 = 32 ∨ (Rect.block (s := S4096x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S4096x1024.size a
  hwx0_8 : ∀ i : grid0.Coords, EltTy.bits .f32 = 32 ∨ (Rect.block (s := S4096x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S4096x1024.size a
  hwx0_9 : ∀ i : grid0.Coords, EltTy.bits .f32 = 32 ∨ (Rect.block (s := S4096x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S4096x1024.size a
  hwx0_11 : ∀ i : grid0.Coords, EltTy.bits .f32 = 32 ∨ (Rect.block (s := S4096x1024) S128x1024.size (cc0_transform_11 i) (hinb0_11 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_3) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_4) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_5) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096, .f32⟩
  | .hbm, ⟨18, _⟩ => ⟨S1024x4096, .f32⟩
  | .hbm, ⟨19, _⟩ => ⟨S4096x4096, .f32⟩
  | .hbm, ⟨20, _⟩ => ⟨S1024x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelEntry.lean ====
/-
  The program up to its one kernel launch, and what the launch finds.

  @main is six host operations — the four input-to-hidden weight matrices stacked into one [4096, 1024] matrix and
  rounded to bf16, the same for the four hidden-to-hidden matrices, the four biases joined into one vector and laid out
  as a row [1, 4096] — followed by the launch of the cell kernel on a grid of 32 points, one per block of 128 batch
  rows. None of the six operations writes an argument of @main, so the launch finds every argument as it was given
  (`V_main_argK`). Window `w`'s block at grid point `t` is read off the array the launch finds (`iblk`); an input
  window's staging buffer holds that block at every point, whether or not it was fetched there (the three activation
  windows are fetched at every point, the two weight windows and the bias window only at the first, their block index
  never moving). Last, the frame claim's post is read off the post of the launch theorem: the three activation arrays
  are staged inputs, which the pipeline never writes; the other twelve arguments are bypassed by the launch.
-/
import proofs.«145631_j27659589386821_2_alg».proof.Proof.Gen.Kernel.Launch
import proofs.«145631_j27659589386821_2_alg».proof.Proof.Gen.Kernel.Skeleton
import proofs.«145631_j27659589386821_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is reached: the given memory after the six host operations. -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is the six host operations and then the launch, which therefore finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 13: the launch finds it as given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 14: the launch finds it as given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data over the arrays `V` whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data over the arrays `V` whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data over the arrays `V` whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data over the arrays `V` whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data over the arrays `V` whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data over the arrays `V` whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- For any proof data over the arrays `V`, a run to the launch theorem's post leaves every argument of @main as given:
    arguments 0, 1, 2 are staged inputs (the pipeline's array of an input window ends at its entry contents), the other
    twelve are buffers the launch bypasses (they end at what the launch found), and the launch found every argument as
    given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.Kernel.Cell

end
-- ==== Proof.KernelBody.lean ====
/-
  The kernel body at one grid point, as a separation-logic triple.

  The body loads the three activation blocks [128, 1024], the two fused weight matrices [4096, 1024] and the bias row
  [1, 4096] whole, computes the four gates, the new cell state and the new hidden state of the block's 128 batch rows,
  and stores each of the six results whole into its own output buffer (a store is preceded by a load of the buffer it
  overwrites, whose value nothing uses). So after the body each output buffer reads as ONE piece covering it whose
  payload is the skeleton's pure term for that result (`k0_pay2` … `k0_pay7`) of the six loaded blocks, and the six
  input buffers are as they were.
-/
import proofs.«145631_j27659589386821_2_alg».proof.Proof.KernelEntry

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each the whole buffer -/

abbrev rA : Rect S128x1024 := Rect.unit (s := S128x1024) ![0, 0] S128x1024.size inb_S128x1024_S128x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output buffer -/

/-- Output window 6 (the new hidden state) after the body, from the input blocks: one whole-buffer store. -/
def out6 (x0 x1 x2 : Vec F S128x1024 .f32) (x3 x4 : Vec F S4096x1024 .bf16) (x5 : Vec F S1x4096 .f32) : Vec F S128x1024 .f32 :=
  View.canon [⟨rA, k0_pay7 (View.ld x0 rA) (View.ld x1 rA) (View.ld x2 rA) (View.ld x3 rW) (View.ld x4 rW) (View.ld x5 rB)⟩]
/-- Output window 7 (the new cell state) after the body, from the input blocks: one whole-buffer store. -/
def out7 (x0 x1 x2 : Vec F S128x1024 .f32) (x3 x4 : Vec F S4096x1024 .bf16) (x5 : Vec F S1x4096 .f32) : Vec F S128x1024 .f32 :=
  View.canon [⟨rA, k0_pay6 (View.ld x0 rA) (View.ld x1 rA) (View.ld x2 rA) (View.ld x3 rW) (View.ld x4 rW) (View.ld x5 rB)⟩]
/-- Output window 8 (the input gate) after the body, from the input blocks: one whole-buffer store. -/
def out8 (x0 x1 : Vec F S128x1024 .f32) (x3 x4 : Vec F S4096x1024 .bf16) (x5 : Vec F S1x4096 .f32) : Vec F S128x1024 .f32 :=
  View.canon [⟨rA, k0_pay2 (View.ld x0 rA) (View.ld x1 rA) (View.ld x3 rW) (View.ld x4 rW) (View.ld x5 rB)⟩]
/-- Output window 9 (the forget gate) after the body, from the input blocks: one whole-buffer store. -/
def out9 (x0 x1 : Vec F S128x1024 .f32) (x3 x4 : Vec F S4096x1024 .bf16) (x5 : Vec F S1x4096 .f32) : Vec F S128x1024 .f32 :=
  View.canon [⟨rA, k0_pay3 (View.ld x0 rA) (View.ld x1 rA) (View.ld x3 rW) (View.ld x4 rW) (View.ld x5 rB)⟩]
/-- Output window 10 (the candidate) after the body, from the input blocks: one whole-buffer store. -/
def out10 (x0 x1 : Vec F S128x1024 .f32) (x3 x4 : Vec F S4096x1024 .bf16) (x5 : Vec F S1x4096 .f32) : Vec F S128x1024 .f32 :=
  View.canon [⟨rA, k0_pay4 (View.ld x0 rA) (View.ld x1 rA) (View.ld x3 rW) (View.ld x4 rW) (View.ld x5 rB)⟩]
/-- Output window 11 (the output gate) after the body, from the input blocks: one whole-buffer store. -/
def out11 (x0 x1 : Vec F S128x1024 .f32) (x3 x4 : Vec F S4096x1024 .bf16) (x5 : Vec F S1x4096 .f32) : Vec F S128x1024 .f32 :=
  View.canon [⟨rA, k0_pay5 (View.ld x0 rA) (View.ld x1 rA) (View.ld x3 rW) (View.ld x4 rW) (View.ld x5 rB)⟩]

/-- One whole-buffer store covers the buffer. -/
theorem cover_whole (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y

/-! ## The body's triple -/

set_option maxHeartbeats 4000000 in
/-- On whole staging buffers, the six inputs' at contents `x0` … `x5` and the six outputs' at anything, the body runs
    to the continuation holding the inputs' as they were and each output's at its `outW` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole)
    (x0 x1 x2 : Vec F S128x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5) ∗ owns (c : Thread nD τ) arg8 fullShare (out7 x0 x1 x2 x3 x4 x5) ∗ owns (c : Thread nD τ) arg9 fullShare (out8 x0 x1 x3 x4 x5) ∗ owns (c : Thread nD τ) arg10 fullShare (out9 x0 x1 x3 x4 x5) ∗ owns (c : Thread nD τ) arg11 fullShare (out10 x0 x1 x3 x4 x5) ∗ owns (c : Thread nD τ) arg12 fullShare (out11 x0 x1 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_whole _)
  isplitl [H7]
  · iexists _; isplitr
    swap; · iexact H7
    ipureintro
    exact View.read_writes_eq_canon _ _ _ (cover_whole _)
  isplitl [H8]
  · iexists _; isplitr
    swap; · iexact H8
    ipureintro
    exact View.read_writes_eq_canon _ _ _ (cover_whole _)
  isplitl [H9]
  · iexists _; isplitr
    swap; · iexact H9
    ipureintro
    exact View.read_writes_eq_canon _ _ _ (cover_whole _)
  isplitl [H10]
  · iexists _; isplitr
    swap; · iexact H10
    ipureintro
    exact View.read_writes_eq_canon _ _ _ (cover_whole _)
  iexists _; isplitr
  swap; · iexact H11
  ipureintro
  exact View.read_writes_eq_canon _ _ _ (cover_whole _)

end Cert.Kernel.Cell

end
-- ==== Proof.KernelRun.lean ====
/-
  The launch: the proof data of the pipeline, the body at every grid point, the run of @main, and the frame.

  The proof data say what each window's staging buffer holds after the body at grid point `t`: an input window's its
  block there, an output window's the body's result (`outW`) of the six input blocks there. The body neither keeps
  anything between points nor touches anything but the twelve staging buffers, so the invariant is the class's. With
  the body's triple at every point, the launch theorem gives the run of @main: every weakly fair execution ends, with
  each pipeline array at what the library computes from the proof data and every bypassed buffer as the launch found it.
-/
import proofs.«145631_j27659589386821_2_alg».proof.Proof.KernelBody

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the launch finds them; after the body at point `t` each input's buffer at its block and
    each output's at the body's result of the six input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
    | ⟨8, _⟩ => out8 (iblk m c 0 t) (iblk m c 1 t) (iblk m c 3 t) (iblk m c 4 t) (iblk m c 5 t)
    | ⟨9, _⟩ => out9 (iblk m c 0 t) (iblk m c 1 t) (iblk m c 3 t) (iblk m c 4 t) (iblk m c 5 t)
    | ⟨10, _⟩ => out10 (iblk m c 0 t) (iblk m c 1 t) (iblk m c 3 t) (iblk m c 4 t) (iblk m c 5 t)
    | ⟨11, _⟩ => out11 (iblk m c 0 t) (iblk m c 1 t) (iblk m c 3 t) (iblk m c 4 t) (iblk m c 5 t)
  Φ _ := Pipeline.ΦA spec0 c
  q _ := fullShare
  owed _ := 0

/-- The proof data's arrays are the launch's. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) := by dsimp only [dats]
theorem after8 (c : Dev nD) (t : Fin cfg0.N) : (dats m 0 c).after 8 t = out8 (iblk m c 0 t) (iblk m c 1 t) (iblk m c 3 t) (iblk m c 4 t) (iblk m c 5 t) := by dsimp only [dats]
theorem after9 (c : Dev nD) (t : Fin cfg0.N) : (dats m 0 c).after 9 t = out9 (iblk m c 0 t) (iblk m c 1 t) (iblk m c 3 t) (iblk m c 4 t) (iblk m c 5 t) := by dsimp only [dats]
theorem after10 (c : Dev nD) (t : Fin cfg0.N) : (dats m 0 c).after 10 t = out10 (iblk m c 0 t) (iblk m c 1 t) (iblk m c 3 t) (iblk m c 4 t) (iblk m c 5 t) := by dsimp only [dats]
theorem after11 (c : Dev nD) (t : Fin cfg0.N) : (dats m 0 c).after 11 t = out11 (iblk m c 0 t) (iblk m c 1 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' buffers hold their blocks, so the body's triple applies; the invariant and the
    core's obligations pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the launch theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and in every final state
    each array of the pipeline holds what the library computes from the proof data and every other buffer the launch
    bypasses what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its fifteen arguments as given — at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Cell

end
-- ==== Proof.KernelIdealEntry.lean ====
/-
  The program up to its one kernel launch, and what the launch finds.

  @main is six host operations — the four input-to-hidden weight matrices stacked into one [4096, 1024] matrix and
  rounded to bf16, the same for the four hidden-to-hidden matrices, the four biases joined into one vector and laid out
  as a row [1, 4096] — followed by the launch of the cell kernel on a grid of 32 points, one per block of 128 batch
  rows. None of the six operations writes an argument of @main, so the launch finds every argument as it was given
  (`V_main_argK`). Window `w`'s block at grid point `t` is read off the array the launch finds (`iblk`); an input
  window's staging buffer holds that block at every point, whether or not it was fetched there (the three activation
  windows are fetched at every point, the two weight windows and the bias window only at the first, their block index
  never moving). Last, the frame claim's post is read off the post of the launch theorem: the three activation arrays
  are staged inputs, which the pipeline never writes; the other twelve arguments are bypassed by the launch.
-/
import proofs.«145631_j27659589386821_2_alg».proof.Proof.Gen.KernelIdeal.Launch
import proofs.«145631_j27659589386821_2_alg».proof.Proof.Gen.KernelIdeal.Skeleton
import proofs.«145631_j27659589386821_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is reached: the given memory after the six host operations. -/
abbrev V (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is the six host operations and then the launch, which therefore finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 13: the launch finds it as given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation writes argument 14: the launch finds it as given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data over the arrays `V` whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data over the arrays `V` whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data over the arrays `V` whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data over the arrays `V` whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data over the arrays `V` whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data over the arrays `V` whose body leaves the block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- For any proof data over the arrays `V`, a run to the launch theorem's post leaves every argument of @main as given:
    arguments 0, 1, 2 are staged inputs (the pipeline's array of an input window ends at its entry contents), the other
    twelve are buffers the launch bypasses (they end at what the launch found), and the launch found every argument as
    given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

end Cert.KernelIdeal.Cell

end
-- ==== Proof.KernelIdealBody.lean ====
/-
  The kernel body at one grid point, as a separation-logic triple.

  The body loads the three activation blocks [128, 1024], the two fused weight matrices [4096, 1024] and the bias row
  [1, 4096] whole, computes the four gates, the new cell state and the new hidden state of the block's 128 batch rows,
  and stores each of the six results whole into its own output buffer (a store is preceded by a load of the buffer it
  overwrites, whose value nothing uses). So after the body each output buffer reads as ONE piece covering it whose
  payload is the skeleton's pure term for that result (`k0_pay2` … `k0_pay7`) of the six loaded blocks, and the six
  input buffers are as they were.
-/
import proofs.«145631_j27659589386821_2_alg».proof.Proof.KernelIdealEntry

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each the whole buffer -/

abbrev rA : Rect S128x1024 := Rect.unit (s := S128x1024) ![0, 0] S128x1024.size inb_S128x1024_S128x1024_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0

/-! ## What the body leaves in each output buffer -/

/-- Output window 6 (the new hidden state) after the body, from the input blocks: one whole-buffer store. -/
def out6 (x0 x1 x2 : Vec F S128x1024 .f32) (x3 x4 : Vec F S4096x1024 .bf16) (x5 : Vec F S1x4096 .f32) : Vec F S128x1024 .f32 :=
  View.canon [⟨rA, k0_pay7 (View.ld x0 rA) (View.ld x1 rA) (View.ld x2 rA) (View.ld x3 rW) (View.ld x4 rW) (View.ld x5 rB)⟩]
/-- Output window 7 (the new cell state) after the body, from the input blocks: one whole-buffer store. -/
def out7 (x0 x1 x2 : Vec F S128x1024 .f32) (x3 x4 : Vec F S4096x1024 .bf16) (x5 : Vec F S1x4096 .f32) : Vec F S128x1024 .f32 :=
  View.canon [⟨rA, k0_pay6 (View.ld x0 rA) (View.ld x1 rA) (View.ld x2 rA) (View.ld x3 rW) (View.ld x4 rW) (View.ld x5 rB)⟩]
/-- Output window 8 (the input gate) after the body, from the input blocks: one whole-buffer store. -/
def out8 (x0 x1 : Vec F S128x1024 .f32) (x3 x4 : Vec F S4096x1024 .bf16) (x5 : Vec F S1x4096 .f32) : Vec F S128x1024 .f32 :=
  View.canon [⟨rA, k0_pay2 (View.ld x0 rA) (View.ld x1 rA) (View.ld x3 rW) (View.ld x4 rW) (View.ld x5 rB)⟩]
/-- Output window 9 (the forget gate) after the body, from the input blocks: one whole-buffer store. -/
def out9 (x0 x1 : Vec F S128x1024 .f32) (x3 x4 : Vec F S4096x1024 .bf16) (x5 : Vec F S1x4096 .f32) : Vec F S128x1024 .f32 :=
  View.canon [⟨rA, k0_pay3 (View.ld x0 rA) (View.ld x1 rA) (View.ld x3 rW) (View.ld x4 rW) (View.ld x5 rB)⟩]
/-- Output window 10 (the candidate) after the body, from the input blocks: one whole-buffer store. -/
def out10 (x0 x1 : Vec F S128x1024 .f32) (x3 x4 : Vec F S4096x1024 .bf16) (x5 : Vec F S1x4096 .f32) : Vec F S128x1024 .f32 :=
  View.canon [⟨rA, k0_pay4 (View.ld x0 rA) (View.ld x1 rA) (View.ld x3 rW) (View.ld x4 rW) (View.ld x5 rB)⟩]
/-- Output window 11 (the output gate) after the body, from the input blocks: one whole-buffer store. -/
def out11 (x0 x1 : Vec F S128x1024 .f32) (x3 x4 : Vec F S4096x1024 .bf16) (x5 : Vec F S1x4096 .f32) : Vec F S128x1024 .f32 :=
  View.canon [⟨rA, k0_pay5 (View.ld x0 rA) (View.ld x1 rA) (View.ld x3 rW) (View.ld x4 rW) (View.ld x5 rB)⟩]

/-- One whole-buffer store covers the buffer. -/
theorem cover_whole (p0 : Vec F S128x1024 .f32) (y : S128x1024.Idx) :
    ∃ pc ∈ ([⟨rA, p0⟩] : List (View.Piece (Elt F) S128x1024 .f32)), y ∈ pc.1.set :=
  View.cover_of_tiled [⟨rA, p0⟩] S128x1024.size (by rfl) y

/-! ## The body's triple -/

set_option maxHeartbeats 4000000 in
/-- On whole staging buffers, the six inputs' at contents `x0` … `x5` and the six outputs' at anything, the body runs
    to the continuation holding the inputs' as they were and each output's at its `outW` of the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S1x4096 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x1024 .f32) (harg12 : arg12.IsWhole)
    (x0 x1 x2 : Vec F S128x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5) ∗ owns (c : Thread nD τ) arg8 fullShare (out7 x0 x1 x2 x3 x4 x5) ∗ owns (c : Thread nD τ) arg9 fullShare (out8 x0 x1 x3 x4 x5) ∗ owns (c : Thread nD τ) arg10 fullShare (out9 x0 x1 x3 x4 x5) ∗ owns (c : Thread nD τ) arg11 fullShare (out10 x0 x1 x3 x4 x5) ∗ owns (c : Thread nD τ) arg12 fullShare (out11 x0 x1 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12) K := by
  simp only [cc0__lstm_kernel_eq_skeleton]; unfold cc0__lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_whole _)
  isplitl [H7]
  · iexists _; isplitr
    swap; · iexact H7
    ipureintro
    exact View.read_writes_eq_canon _ _ _ (cover_whole _)
  isplitl [H8]
  · iexists _; isplitr
    swap; · iexact H8
    ipureintro
    exact View.read_writes_eq_canon _ _ _ (cover_whole _)
  isplitl [H9]
  · iexists _; isplitr
    swap; · iexact H9
    ipureintro
    exact View.read_writes_eq_canon _ _ _ (cover_whole _)
  isplitl [H10]
  · iexists _; isplitr
    swap; · iexact H10
    ipureintro
    exact View.read_writes_eq_canon _ _ _ (cover_whole _)
  iexists _; isplitr
  swap; · iexact H11
  ipureintro
  exact View.read_writes_eq_canon _ _ _ (cover_whole _)

end Cert.KernelIdeal.Cell

end
-- ==== Proof.KernelIdealRun.lean ====
/-
  The launch: the proof data of the pipeline, the body at every grid point, the run of @main, and the frame.

  The proof data say what each window's staging buffer holds after the body at grid point `t`: an input window's its
  block there, an output window's the body's result (`outW`) of the six input blocks there. The body neither keeps
  anything between points nor touches anything but the twelve staging buffers, so the invariant is the class's. With
  the body's triple at every point, the launch theorem gives the run of @main: every weakly fair execution ends, with
  each pipeline array at what the library computes from the proof data and every bypassed buffer as the launch found it.
-/
import proofs.«145631_j27659589386821_2_alg».proof.Proof.KernelIdealBody

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the launch finds them; after the body at point `t` each input's buffer at its block and
    each output's at the body's result of the six input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
    | ⟨8, _⟩ => out8 (iblk m c 0 t) (iblk m c 1 t) (iblk m c 3 t) (iblk m c 4 t) (iblk m c 5 t)
    | ⟨9, _⟩ => out9 (iblk m c 0 t) (iblk m c 1 t) (iblk m c 3 t) (iblk m c 4 t) (iblk m c 5 t)
    | ⟨10, _⟩ => out10 (iblk m c 0 t) (iblk m c 1 t) (iblk m c 3 t) (iblk m c 4 t) (iblk m c 5 t)
    | ⟨11, _⟩ => out11 (iblk m c 0 t) (iblk m c 1 t) (iblk m c 3 t) (iblk m c 4 t) (iblk m c 5 t)
  Φ _ := Pipeline.ΦA spec0 c
  q _ := fullShare
  owed _ := 0

/-- The proof data's arrays are the launch's. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) := by dsimp only [dats]
theorem after8 (c : Dev nD) (t : Fin cfg0.N) : (dats m 0 c).after 8 t = out8 (iblk m c 0 t) (iblk m c 1 t) (iblk m c 3 t) (iblk m c 4 t) (iblk m c 5 t) := by dsimp only [dats]
theorem after9 (c : Dev nD) (t : Fin cfg0.N) : (dats m 0 c).after 9 t = out9 (iblk m c 0 t) (iblk m c 1 t) (iblk m c 3 t) (iblk m c 4 t) (iblk m c 5 t) := by dsimp only [dats]
theorem after10 (c : Dev nD) (t : Fin cfg0.N) : (dats m 0 c).after 10 t = out10 (iblk m c 0 t) (iblk m c 1 t) (iblk m c 3 t) (iblk m c 4 t) (iblk m c 5 t) := by dsimp only [dats]
theorem after11 (c : Dev nD) (t : Fin cfg0.N) : (dats m 0 c).after 11 t = out11 (iblk m c 0 t) (iblk m c 1 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- The body at any point: the inputs' buffers hold their blocks, so the body's triple applies; the invariant and the
    core's obligations pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the launch theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates, and in every final state
    each array of the pipeline holds what the library computes from the proof data and every other buffer the launch
    bypasses what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its fifteen arguments as given — at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Cell

end
-- ==== Proof.KernelIdealBlocks.lean ====
/-
  The windows' blocks as parts of the arrays the launch finds, and those arrays as functions of @main's arguments.

  The grid has 32 points; at point `t` each activation window and each result window holds block `(t, 0)` of its
  [4096, 1024] array, that is rows 128·t … 128·t + 127; the two weight windows and the bias window hold their whole
  array at every point. The two weight arrays the launch finds are the four matrices stacked (the rounding to bf16 is
  the identity on the extended reals), and the bias row it finds is the four biases joined, laid out as one row.
-/
import proofs.«145631_j27659589386821_2_alg».proof.Proof.KernelIdealRun
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Cell

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The printed index maps, decided over the grid -/

/-- The activation and result windows are at block (t, 0) at point t. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The weight and bias windows are at block (0, 0) at every point. -/
theorem idx_whole : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The input blocks read at coordinates -/

/-- Row p of activation window 0's block at point t is row 128·t + p of its array. -/
theorem iblk0_apply (c : Dev nD) (t : Fin cfg0.N) (p : Fin 128) (k : Fin 1024) (r : Fin 4096) (hr : r.val = t.val * 128 + p.val) :
    (iblk m c 0 t : Vec Ideal S128x1024 .f32) (ix2 p k) = (V m c main_arg0 : S4096x1024.Idx → EReal) (ix2 r k) := by
  obtain ⟨e0, e1, -⟩ := idx_rows t
  unfold iblk
  rw [View.read_apply]
  show V m c main_arg0 _ = V m c main_arg0 _
  congr 1
  funext a
  apply Fin.ext
  match a with
  | ⟨0, _⟩ => show win0_0.index t (0 : Fin 2) * 128 + 1 * p.val = r.val; rw [e0, hr]; omega
  | ⟨1, _⟩ => show win0_0.index t (1 : Fin 2) * 1024 + 1 * k.val = k.val; rw [e1]; omega
/-- Row p of activation window 1's block at point t is row 128·t + p of its array. -/
theorem iblk1_apply (c : Dev nD) (t : Fin cfg0.N) (p : Fin 128) (k : Fin 1024) (r : Fin 4096) (hr : r.val = t.val * 128 + p.val) :
    (iblk m c 1 t : Vec Ideal S128x1024 .f32) (ix2 p k) = (V m c main_arg1 : S4096x1024.Idx → EReal) (ix2 r k) := by
  obtain ⟨-, -, e0, e1, -⟩ := idx_rows t
  unfold iblk
  rw [View.read_apply]
  show V m c main_arg1 _ = V m c main_arg1 _
  congr 1
  funext a
  apply Fin.ext
  match a with
  | ⟨0, _⟩ => show win0_1.index t (0 : Fin 2) * 128 + 1 * p.val = r.val; rw [e0, hr]; omega
  | ⟨1, _⟩ => show win0_1.index t (1 : Fin 2) * 1024 + 1 * k.val = k.val; rw [e1]; omega
/-- Row p of activation window 2's block at point t is row 128·t + p of its array. -/
theorem iblk2_apply (c : Dev nD) (t : Fin cfg0.N) (p : Fin 128) (k : Fin 1024) (r : Fin 4096) (hr : r.val = t.val * 128 + p.val) :
    (iblk m c 2 t : Vec Ideal S128x1024 .f32) (ix2 p k) = (V m c main_arg2 : S4096x1024.Idx → EReal) (ix2 r k) := by
  obtain ⟨-, -, -, -, e0, e1, -⟩ := idx_rows t
  unfold iblk
  rw [View.read_apply]
  show V m c main_arg2 _ = V m c main_arg2 _
  congr 1
  funext a
  apply Fin.ext
  match a with
  | ⟨0, _⟩ => show win0_2.index t (0 : Fin 2) * 128 + 1 * p.val = r.val; rw [e0, hr]; omega
  | ⟨1, _⟩ => show win0_2.index t (1 : Fin 2) * 1024 + 1 * k.val = k.val; rw [e1]; omega
/-- Window 3's block at every point is its whole array. -/
theorem iblk3_eq (c : Dev nD) (t : Fin cfg0.N) :
    (iblk m c 3 t : Vec Ideal S4096x1024 .bf16) = (V m c main_v1 : S4096x1024.Idx → EReal) := by
  obtain ⟨e0, e1, -⟩ := idx_whole t
  funext y
  unfold iblk
  rw [View.read_apply]
  show V m c main_v1 _ = V m c main_v1 _
  congr 1
  funext a
  apply Fin.ext
  match a with
  | ⟨0, _⟩ => show win0_3.index t (0 : Fin 2) * 4096 + 1 * (y 0).val = (y 0).val; rw [e0]; omega
  | ⟨1, _⟩ => show win0_3.index t (1 : Fin 2) * 1024 + 1 * (y 1).val = (y 1).val; rw [e1]; omega
/-- Window 4's block at every point is its whole array. -/
theorem iblk4_eq (c : Dev nD) (t : Fin cfg0.N) :
    (iblk m c 4 t : Vec Ideal S4096x1024 .bf16) = (V m c main_v3 : S4096x1024.Idx → EReal) := by
  obtain ⟨-, -, e0, e1, -⟩ := idx_whole t
  funext y
  unfold iblk
  rw [View.read_apply]
  show V m c main_v3 _ = V m c main_v3 _
  congr 1
  funext a
  apply Fin.ext
  match a with
  | ⟨0, _⟩ => show win0_4.index t (0 : Fin 2) * 4096 + 1 * (y 0).val = (y 0).val; rw [e0]; omega
  | ⟨1, _⟩ => show win0_4.index t (1 : Fin 2) * 1024 + 1 * (y 1).val = (y 1).val; rw [e1]; omega
/-- Window 5's block at every point is its whole array. -/
theorem iblk5_eq (c : Dev nD) (t : Fin cfg0.N) :
    (iblk m c 5 t : Vec Ideal S1x4096 .f32) = (V m c main_v5 : S1x4096.Idx → EReal) := by
  obtain ⟨-, -, -, -, e0, e1⟩ := idx_whole t
  funext y
  unfold iblk
  rw [View.read_apply]
  show V m c main_v5 _ = V m c main_v5 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 4096 + 1 * (y 1).val = (y 1).val; rw [e1]; omega

/-! ## The arrays the launch finds, as functions of @main's arguments -/

/-- The fused input weights: the four input-to-hidden matrices stacked. -/
theorem V_v1 (c : Dev nD) : (V m c main_v1 : S4096x1024.Idx → EReal)
    = concatenate S4096x1024 0 [⟨S1024x1024, m ((c : Thread nD τ).loc main_arg3)⟩, ⟨S1024x1024, m ((c : Thread nD τ).loc main_arg5)⟩, ⟨S1024x1024, m ((c : Thread nD τ).loc main_arg7)⟩, ⟨S1024x1024, m ((c : Thread nD τ).loc main_arg9)⟩] concatenates_S1024x1024_S1024x1024_S1024x1024_S1024x1024_S4096x1024_d0 := by
  dsimp only [V, hostOps0]
  after_results
  rfl

/-- The fused recurrent weights: the four hidden-to-hidden matrices stacked. -/
theorem V_v3 (c : Dev nD) : (V m c main_v3 : S4096x1024.Idx → EReal)
    = concatenate S4096x1024 0 [⟨S1024x1024, m ((c : Thread nD τ).loc main_arg11)⟩, ⟨S1024x1024, m ((c : Thread nD τ).loc main_arg12)⟩, ⟨S1024x1024, m ((c : Thread nD τ).loc main_arg13)⟩, ⟨S1024x1024, m ((c : Thread nD τ).loc main_arg14)⟩] concatenates_S1024x1024_S1024x1024_S1024x1024_S1024x1024_S4096x1024_d0 := by
  dsimp only [V, hostOps0]
  after_results
  rfl

/-- The fused bias row: the four biases joined, as one row. -/
theorem V_v5 (c : Dev nD) : (V m c main_v5 : S1x4096.Idx → EReal)
    = shapeCast S1x4096 (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0) shapeCasts_S4096_S1x4096 := by
  dsimp only [V, hostOps0]
  after_results
  rfl

end Cert.KernelIdeal.Cell

end
-- ==== Proof.LstmSpec.lean ====
/-
  One step of a long short-term memory cell with the four gates' weights fused, as a function of one batch row.

  For a batch row with input `xr`, previous hidden state `hr` and previous cell state `cr` (each 1024 long), fused
  weights `Wx`, `Wh` (4096 rows of 1024: the input, forget, candidate and output gates' rows one block after the other)
  and a fused bias (4096 long), the pre-activation of fused column `q` is
      pre q = (∑ k, xr k · Wx(q,k)) + (∑ k, hr k · Wh(q,k)) + bias q ,
  the gates are the logistic of columns j, 1024 + j and 3072 + j and the hyperbolic tangent of column 2048 + j, the new
  cell state is  forget · cr + input · candidate  and the new hidden state  output · tanh(new cell state).
  Everything is on the extended reals with the exact operations; no law of arithmetic is used here, only definitions.
-/
import Idealize.ShloMosaic.PureOps.Ideal
import Idealize.ShloMosaic.Lib.ValueIdx

noncomputable section

namespace Cert.Lstm

open Idealize.ShloMosaic Idealize.ShloMosaic.ValueIdx

/-- A [4096, 1024] array of extended reals: the batch's activations, or a fused weight matrix. -/
abbrev Mat : Type := (⟨2, ![4096, 1024]⟩ : Shape).Idx → EReal

/-- Row `r` of a [4096, 1024] array. -/
def rowOf (x : Mat) (r : Fin 4096) : Fin 1024 → EReal := fun k => x (ix2 r k)

/-- The pre-activation of fused column `q` for one batch row. -/
def pre (xr hr : Fin 1024 → EReal) (Wx Wh : Mat) (bias : Fin 4096 → EReal) (q : Fin 4096) : EReal :=
  (∑ k : Fin 1024, xr k * Wx (ix2 q k)) + (∑ k : Fin 1024, hr k * Wh (ix2 q k)) + bias q

/-- Unit `j` of the gate whose block of fused columns starts at `o`. -/
def col (o : Nat) (ho : o + 1024 ≤ 4096) (j : Fin 1024) : Fin 4096 := ⟨o + j.val, by omega⟩

/-- The input gate. -/
def gateI (xr hr : Fin 1024 → EReal) (Wx Wh : Mat) (bias : Fin 4096 → EReal) (j : Fin 1024) : EReal :=
  Ideal.logistic (pre xr hr Wx Wh bias (col 0 (by decide) j))
/-- The forget gate. -/
def gateF (xr hr : Fin 1024 → EReal) (Wx Wh : Mat) (bias : Fin 4096 → EReal) (j : Fin 1024) : EReal :=
  Ideal.logistic (pre xr hr Wx Wh bias (col 1024 (by decide) j))
/-- The candidate. -/
def gateG (xr hr : Fin 1024 → EReal) (Wx Wh : Mat) (bias : Fin 4096 → EReal) (j : Fin 1024) : EReal :=
  Ideal.tanh (pre xr hr Wx Wh bias (col 2048 (by decide) j))
/-- The output gate. -/
def gateO (xr hr : Fin 1024 → EReal) (Wx Wh : Mat) (bias : Fin 4096 → EReal) (j : Fin 1024) : EReal :=
  Ideal.logistic (pre xr hr Wx Wh bias (col 3072 (by decide) j))
/-- The new cell state: forget · old + input · candidate. -/
def cellC (xr hr cr : Fin 1024 → EReal) (Wx Wh : Mat) (bias : Fin 4096 → EReal) (j : Fin 1024) : EReal :=
  gateF xr hr Wx Wh bias j * cr j + gateI xr hr Wx Wh bias j * gateG xr hr Wx Wh bias j
/-- The new hidden state: output · tanh (new cell state). -/
def cellH (xr hr cr : Fin 1024 → EReal) (Wx Wh : Mat) (bias : Fin 4096 → EReal) (j : Fin 1024) : EReal :=
  gateO xr hr Wx Wh bias j * Ideal.tanh (cellC xr hr cr Wx Wh bias j)

/-! ## The six results as whole [4096, 1024] arrays -/

/-- The row coordinate of an index. -/
abbrev rowIx (i : (⟨2, ![4096, 1024]⟩ : Shape).Idx) : Fin 4096 := ⟨(i 0).val, (i 0).isLt⟩
/-- The column coordinate of an index. -/
abbrev colIx (i : (⟨2, ![4096, 1024]⟩ : Shape).Idx) : Fin 1024 := ⟨(i 1).val, (i 1).isLt⟩

def outI (x h : Mat) (Wx Wh : Mat) (bias : Fin 4096 → EReal) : Mat := fun i =>
  gateI (rowOf x (rowIx i)) (rowOf h (rowIx i)) Wx Wh bias (colIx i)
def outF (x h : Mat) (Wx Wh : Mat) (bias : Fin 4096 → EReal) : Mat := fun i =>
  gateF (rowOf x (rowIx i)) (rowOf h (rowIx i)) Wx Wh bias (colIx i)
def outG (x h : Mat) (Wx Wh : Mat) (bias : Fin 4096 → EReal) : Mat := fun i =>
  gateG (rowOf x (rowIx i)) (rowOf h (rowIx i)) Wx Wh bias (colIx i)
def outO (x h : Mat) (Wx Wh : Mat) (bias : Fin 4096 → EReal) : Mat := fun i =>
  gateO (rowOf x (rowIx i)) (rowOf h (rowIx i)) Wx Wh bias (colIx i)
def outC (x h c : Mat) (Wx Wh : Mat) (bias : Fin 4096 → EReal) : Mat := fun i =>
  cellC (rowOf x (rowIx i)) (rowOf h (rowIx i)) (rowOf c (rowIx i)) Wx Wh bias (colIx i)
def outH (x h c : Mat) (Wx Wh : Mat) (bias : Fin 4096 → EReal) : Mat := fun i =>
  cellH (rowOf x (rowIx i)) (rowOf h (rowIx i)) (rowOf c (rowIx i)) Wx Wh bias (colIx i)

end Cert.Lstm

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.BlockCell.lean ====
/-
  The kernel body's arithmetic at an index: one step of the fused long short-term memory cell, read entry by entry.

  The body loads a block of 128 batch rows of the input x, the hidden state h and the cell state c, the two fused weight
  matrices (4096 rows of 1024) and the fused bias as a row of 4096. At the exact values the narrowing to bf16 and the
  shape casts between equal shapes change nothing, so the body's fused pre-activation at row p and fused column q is
      (∑ k, x(p,k) · Wx(q,k)) + (∑ k, h(p,k) · Wh(q,k)) + bias q :
  each matrix product into the zero accumulator contracts the second axis of both operands (row p of the activations
  against ROW q of the weights), and the bias row is repeated over the 128 rows. The four gates are the logistic (input,
  forget, output) or the hyperbolic tangent (candidate) of the column blocks starting at 0, 1024, 2048 and 3072; the new
  cell state is forget · c + input · candidate and the new hidden state is output · tanh (new cell state), lane by lane.
  Each statement below says that one of the body's seven values, at (p, j), is the specification's function of row p.
-/
import proofs.«145631_j27659589386821_2_alg».proof.Proof.Gen.KernelIdeal.Skeleton
import proofs.«145631_j27659589386821_2_alg».proof.Proof.LstmSpec
import proofs.«145631_j27659589386821_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The matrix product's index maps: the left operand is read at (output row, contraction position), the right one
    at (output column, contraction position) -/

theorem dot_lhs_0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem dot_lhs_1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem dot_rhs_0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem dot_rhs_1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

variable (x0 h0 c0 : Vec Ideal S128x1024 .f32) (wx wh : Vec Ideal S4096x1024 .bf16) (b12 : Vec Ideal S1x4096 .f32)
  (p : Fin 128) (j : Fin 1024)

/-- One product of the body: a block of activations, narrowed to bf16, times the fused weights into the zero
    accumulator, at (p, q), is row p of the activations times row q of the weights. -/
theorem prod_apply (a : Vec Ideal S128x1024 .f32) (w : Vec Ideal S4096x1024 .bf16) (q : Fin 4096) :
    FloatOps.matmul dot_S128x1024_S4096x1024_S128x4096_1_1_0_0_n_n none (truncf .bf16 a bitsLt_bf16_f32 : FVec Ideal S128x1024 .bf16)
        (shapeCast S4096x1024 w shapeCasts_S4096x1024_S4096x1024 : FVec Ideal S4096x1024 .bf16)
        (constant (F := Ideal) S128x4096 .f32 0x00000000#32) (ix2 p q)
      = ∑ k : Fin 1024, a (ix2 p k) * w (ix2 q k) := by
  rw [shapeCast_self]
  exact Cert.MatmulRows.matmul_rows_rows dot_S128x1024_S4096x1024_S128x4096_1_1_0_0_n_n rfl rfl dot_lhs_0 dot_lhs_1 dot_rhs_0 dot_rhs_1 none
    (truncf .bf16 a bitsLt_bf16_f32 : FVec Ideal S128x1024 .bf16) w p q

/-- The fused pre-activation at (p, q): the two products, row by row, plus the bias of column q. -/
theorem pay1_apply (q : Fin 4096) :
    k0_pay1 (F := Ideal) x0 h0 wx wh b12 (ix2 p q)
      = Cert.Lstm.pre (fun k : Fin 1024 => x0 (ix2 p k)) (fun k : Fin 1024 => h0 (ix2 p k)) wx wh
          (fun q : Fin 4096 => b12 (ix2 (0 : Fin 1) q)) q := by
  unfold k0_pay1 Cert.Lstm.pre
  dsimp only
  refine (addf_apply _ _ _).trans ?_
  refine congrArg₂ (· + ·) ((addf_apply _ _ _).trans
    (congrArg₂ (· + ·) (prod_apply p x0 wx q) (prod_apply p h0 wh q))) ?_
  rw [shapeCast_self]
  exact broadcastTo_1b_ab_apply b12 broadcasts_S1x4096_S128x4096 p q

/-- The input gate at (p, j): the logistic of fused column j. -/
theorem pay2_apply :
    k0_pay2 (F := Ideal) x0 h0 wx wh b12 (ix2 p j)
      = Cert.Lstm.gateI (fun k : Fin 1024 => x0 (ix2 p k)) (fun k : Fin 1024 => h0 (ix2 p k)) wx wh
          (fun q : Fin 4096 => b12 (ix2 (0 : Fin 1) q)) j := by
  unfold k0_pay2 Cert.Lstm.gateI
  show Ideal.logistic (extractStridedSlice S128x1024 ![0, 0] (k0_pay1 (F := Ideal) x0 h0 wx wh b12) slices_S128x4096_o0_0_S128x1024 (ix2 p j)) = _
  refine congrArg Ideal.logistic ?_
  refine (slice2_axis1_apply 0 (k0_pay1 (F := Ideal) x0 h0 wx wh b12) slices_S128x4096_o0_0_S128x1024 p j
    (Cert.Lstm.col 0 (by decide) j) rfl).trans ?_
  exact pay1_apply x0 h0 wx wh b12 p _

/-- The forget gate at (p, j): the logistic of fused column 1024 + j. -/
theorem pay3_apply :
    k0_pay3 (F := Ideal) x0 h0 wx wh b12 (ix2 p j)
      = Cert.Lstm.gateF (fun k : Fin 1024 => x0 (ix2 p k)) (fun k : Fin 1024 => h0 (ix2 p k)) wx wh
          (fun q : Fin 4096 => b12 (ix2 (0 : Fin 1) q)) j := by
  unfold k0_pay3 Cert.Lstm.gateF
  show Ideal.logistic (extractStridedSlice S128x1024 ![0, 1024] (k0_pay1 (F := Ideal) x0 h0 wx wh b12) slices_S128x4096_o0_1024_S128x1024 (ix2 p j)) = _
  refine congrArg Ideal.logistic ?_
  refine (slice2_axis1_apply 1024 (k0_pay1 (F := Ideal) x0 h0 wx wh b12) slices_S128x4096_o0_1024_S128x1024 p j
    (Cert.Lstm.col 1024 (by decide) j) rfl).trans ?_
  exact pay1_apply x0 h0 wx wh b12 p _

/-- The candidate at (p, j): the hyperbolic tangent of fused column 2048 + j. -/
theorem pay4_apply :
    k0_pay4 (F := Ideal) x0 h0 wx wh b12 (ix2 p j)
      = Cert.Lstm.gateG (fun k : Fin 1024 => x0 (ix2 p k)) (fun k : Fin 1024 => h0 (ix2 p k)) wx wh
          (fun q : Fin 4096 => b12 (ix2 (0 : Fin 1) q)) j := by
  unfold k0_pay4 Cert.Lstm.gateG
  show Ideal.tanh (extractStridedSlice S128x1024 ![0, 2048] (k0_pay1 (F := Ideal) x0 h0 wx wh b12) slices_S128x4096_o0_2048_S128x1024 (ix2 p j)) = _
  refine congrArg Ideal.tanh ?_
  refine (slice2_axis1_apply 2048 (k0_pay1 (F := Ideal) x0 h0 wx wh b12) slices_S128x4096_o0_2048_S128x1024 p j
    (Cert.Lstm.col 2048 (by decide) j) rfl).trans ?_
  exact pay1_apply x0 h0 wx wh b12 p _

/-- The output gate at (p, j): the logistic of fused column 3072 + j. -/
theorem pay5_apply :
    k0_pay5 (F := Ideal) x0 h0 wx wh b12 (ix2 p j)
      = Cert.Lstm.gateO (fun k : Fin 1024 => x0 (ix2 p k)) (fun k : Fin 1024 => h0 (ix2 p k)) wx wh
          (fun q : Fin 4096 => b12 (ix2 (0 : Fin 1) q)) j := by
  unfold k0_pay5 Cert.Lstm.gateO
  show Ideal.logistic (extractStridedSlice S128x1024 ![0, 3072] (k0_pay1 (F := Ideal) x0 h0 wx wh b12) slices_S128x4096_o0_3072_S128x1024 (ix2 p j)) = _
  refine congrArg Ideal.logistic ?_
  refine (slice2_axis1_apply 3072 (k0_pay1 (F := Ideal) x0 h0 wx wh b12) slices_S128x4096_o0_3072_S128x1024 p j
    (Cert.Lstm.col 3072 (by decide) j) rfl).trans ?_
  exact pay1_apply x0 h0 wx wh b12 p _

/-- The new cell state at (p, j): forget · c + input · candidate. -/
theorem pay6_apply :
    k0_pay6 (F := Ideal) x0 h0 c0 wx wh b12 (ix2 p j)
      = Cert.Lstm.cellC (fun k : Fin 1024 => x0 (ix2 p k)) (fun k : Fin 1024 => h0 (ix2 p k)) (fun k : Fin 1024 => c0 (ix2 p k)) wx wh
          (fun q : Fin 4096 => b12 (ix2 (0 : Fin 1) q)) j := by
  unfold k0_pay6 Cert.Lstm.cellC
  dsimp only
  refine (addf_apply _ _ _).trans ?_
  refine congrArg₂ (· + ·) ((mulf_apply _ _ _).trans (congrArg (· * c0 (ix2 p j)) (pay3_apply x0 h0 wx wh b12 p j)))
    ((mulf_apply _ _ _).trans (congrArg₂ (· * ·) (pay2_apply x0 h0 wx wh b12 p j) (pay4_apply x0 h0 wx wh b12 p j)))

/-- The new hidden state at (p, j): output · tanh (new cell state). -/
theorem pay7_apply :
    k0_pay7 (F := Ideal) x0 h0 c0 wx wh b12 (ix2 p j)
      = Cert.Lstm.cellH (fun k : Fin 1024 => x0 (ix2 p k)) (fun k : Fin 1024 => h0 (ix2 p k)) (fun k : Fin 1024 => c0 (ix2 p k)) wx wh
          (fun q : Fin 4096 => b12 (ix2 (0 : Fin 1) q)) j := by
  unfold k0_pay7 Cert.Lstm.cellH
  refine (mulf_apply _ _ _).trans ?_
  exact congrArg₂ (· * ·) (pay5_apply x0 h0 wx wh b12 p j)
    (congrArg Ideal.tanh (pay6_apply x0 h0 c0 wx wh b12 p j))

end Cert.KernelIdeal.BlockValue

end
-- ==== Proof.KernelIdealValue.lean ====
/-
  What the kernel's six result arrays hold after the run, as whole-array functions of @main's arguments.

  At grid point `t` the body's result for row p of the block is the specification's row function of row 128·t + p of
  the activations, of the fused weights and of the fused bias (the body's arithmetic read at an index); so what point
  `t` writes back is block `t` of the specification's whole array, the 32 blocks cover the array, and each result array
  ends at the specification's array of what the launch found — which, the host operations read back, is the
  specification's array of @main's arguments with the weights stacked and the biases joined.
-/
import proofs.«145631_j27659589386821_2_alg».proof.Proof.KernelIdealBlocks
import proofs.«145631_j27659589386821_2_alg».proof.Proof.BlockCell
import proofs.«145631_j27659589386821_2_alg».proof.Proof.LstmSpec

set_option maxRecDepth 16384

noncomputable section

namespace Cert.KernelIdeal.Cell

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The fused operands as functions of @main's arguments -/

/-- The four input-to-hidden weight matrices stacked. -/
def Wx (c : Dev nD) : Cert.Lstm.Mat := (concatenate S4096x1024 0 [⟨S1024x1024, m ((c : Thread nD τ).loc main_arg3)⟩, ⟨S1024x1024, m ((c : Thread nD τ).loc main_arg5)⟩, ⟨S1024x1024, m ((c : Thread nD τ).loc main_arg7)⟩, ⟨S1024x1024, m ((c : Thread nD τ).loc main_arg9)⟩] concatenates_S1024x1024_S1024x1024_S1024x1024_S1024x1024_S4096x1024_d0)
/-- The four hidden-to-hidden weight matrices stacked. -/
def Wh (c : Dev nD) : Cert.Lstm.Mat := (concatenate S4096x1024 0 [⟨S1024x1024, m ((c : Thread nD τ).loc main_arg11)⟩, ⟨S1024x1024, m ((c : Thread nD τ).loc main_arg12)⟩, ⟨S1024x1024, m ((c : Thread nD τ).loc main_arg13)⟩, ⟨S1024x1024, m ((c : Thread nD τ).loc main_arg14)⟩] concatenates_S1024x1024_S1024x1024_S1024x1024_S1024x1024_S4096x1024_d0)
/-- The four biases joined. -/
def Bc (c : Dev nD) : S4096.Idx → EReal := (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0)

/-- The bias row the launch finds, at column q, is the joined bias at q. -/
theorem V_v5_apply (c : Dev nD) (q : Fin 4096) : (V m c main_v5 : S1x4096.Idx → EReal) (ix2 (0 : Fin 1) q) = Bc m c (ix1 q) := by
  rw [V_v5]
  exact shapeCast_a_1a_apply _ _ (0 : Fin 1) q

/-! ## Result window 6 -/

/-- An index of the array is in point `t`'s block iff each coordinate is in the block's range on its axis. -/
theorem mem_blk6 (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v6_0).slice (win0_6.rect t)).set ↔ _
  rw [View.set_slice_whole, Rect.mem_set_unit]
  exact Iff.rfl

/-- What point `t` writes back is block `t` of the specification's array of what the launch found. -/
theorem flushed6_eq (c : Dev nD) (t : Fin cfg0.N) :
    (dats m 0 c).flushed 6 t = ((cfg0.win 6).blk t).view.read (Elt Ideal) (Cert.Lstm.outH (V m c main_arg0) (V m c main_arg1) (V m c main_arg2) (V m c main_v1) (V m c main_v3) (fun q => (V m c main_v5 : S1x4096.Idx → EReal) (ix2 (0 : Fin 1) q))) := by
  show (cfg0.win 6).cut (grid0.coords t) ((dats m 0 c).after 6 t) = _
  rw [after6]
  unfold out6
  rw [View.canon_unit_zero hz]
  simp only [View.ld_unit_zero (S := S128x1024) hz, View.ld_unit_zero (S := S4096x1024) hz, View.ld_unit_zero (S := S1x4096) hz]
  obtain ⟨-, -, -, -, -, -, e0, e1, -⟩ := idx_rows t
  funext y
  obtain ⟨p, j, rfl⟩ : ∃ (p : Fin 128) (j : Fin 1024), y = ix2 p j := ⟨y 0, y 1, eq_ix2 y⟩
  have hr : t.val * 128 + p.val < 4096 := by have := t.isLt; have hN : cfg0.N = 32 := N_0; have := p.isLt; omega
  refine (Cert.KernelIdeal.BlockValue.pay7_apply (iblk m c 0 t) (iblk m c 1 t) (iblk m c 2 t) (iblk m c 3 t) (iblk m c 4 t) (iblk m c 5 t) p j).trans ?_
  rw [View.read_apply]
  have hemb : ((cfg0.win 6).blk t).view.emb (ix2 p j) = ix2 (⟨t.val * 128 + p.val, hr⟩ : Fin 4096) j := by
    funext a
    apply Fin.ext
    match a with
    | ⟨0, _⟩ => show win0_6.index t (0 : Fin 2) * 128 + 1 * p.val = t.val * 128 + p.val; rw [e0]; omega
    | ⟨1, _⟩ => show win0_6.index t (1 : Fin 2) * 1024 + 1 * j.val = j.val; rw [e1]; omega
  rw [hemb]
  show _ = Cert.Lstm.cellH (Cert.Lstm.rowOf (V m c main_arg0) ⟨t.val * 128 + p.val, hr⟩) (Cert.Lstm.rowOf (V m c main_arg1) ⟨t.val * 128 + p.val, hr⟩) (Cert.Lstm.rowOf (V m c main_arg2) ⟨t.val * 128 + p.val, hr⟩) (V m c main_v1) (V m c main_v3) (fun q => (V m c main_v5 : S1x4096.Idx → EReal) (ix2 (0 : Fin 1) q)) j
  have h0 : (fun k : Fin 1024 => (iblk m c 0 t : Vec Ideal S128x1024 .f32) (ix2 p k)) = Cert.Lstm.rowOf (V m c main_arg0) ⟨t.val * 128 + p.val, hr⟩ :=
    funext fun k => iblk0_apply m c t p k _ rfl
  have h1 : (fun k : Fin 1024 => (iblk m c 1 t : Vec Ideal S128x1024 .f32) (ix2 p k)) = Cert.Lstm.rowOf (V m c main_arg1) ⟨t.val * 128 + p.val, hr⟩ :=
    funext fun k => iblk1_apply m c t p k _ rfl
  have h2 : (fun k : Fin 1024 => (iblk m c 2 t : Vec Ideal S128x1024 .f32) (ix2 p k)) = Cert.Lstm.rowOf (V m c main_arg2) ⟨t.val * 128 + p.val, hr⟩ :=
    funext fun k => iblk2_apply m c t p k _ rfl
  rw [h0, h1, h2, iblk3_eq, iblk4_eq, iblk5_eq]

/-- The 32 blocks cover the array: row r is in the block of point r / 128. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 32 := N_0
  refine ⟨⟨(i 0).val / 128, by omega⟩, flush0_6 _, ?_⟩
  rw [mem_blk6]
  obtain ⟨-, -, -, -, -, -, e0, e1, -⟩ := idx_rows ⟨(i 0).val / 128, by omega⟩
  intro a
  match a with
  | ⟨0, _⟩ => show win0_6.index _ (0 : Fin 2) * 128 ≤ (i 0).val ∧ (i 0).val < win0_6.index _ (0 : Fin 2) * 128 + 128; rw [e0]; show (i 0).val / 128 * 128 ≤ (i 0).val ∧ (i 0).val < (i 0).val / 128 * 128 + 128; omega
  | ⟨1, _⟩ => show win0_6.index _ (1 : Fin 2) * 1024 ≤ (i 1).val ∧ (i 1).val < win0_6.index _ (1 : Fin 2) * 1024 + 1024; rw [e1]; omega

/-- The result array after the run, as a function of @main's arguments. -/
theorem final6 (c : Dev nD) : (dats m 0 c).arrAt 6 cfg0.N = Cert.Lstm.outH (m ((c : Thread nD τ).loc main_arg0)) (m ((c : Thread nD τ).loc main_arg1)) (m ((c : Thread nD τ).loc main_arg2)) (Wx m c) (Wh m c) (fun q => Bc m c (ix1 q)) := by
  rw [(dats m 0 c).arrAt_eq_of_cover 6 (Cert.Lstm.outH (V m c main_arg0) (V m c main_arg1) (V m c main_arg2) (V m c main_v1) (V m c main_v3) (fun q => (V m c main_v5 : S1x4096.Idx → EReal) (ix2 (0 : Fin 1) q))) (fun t _ => flushed6_eq m c t) (cover6)]
  rw [V_main_arg0, V_main_arg1, V_main_arg2, V_v1, V_v3]
  have hb : (fun q : Fin 4096 => (V m c main_v5 : S1x4096.Idx → EReal) (ix2 (0 : Fin 1) q)) = fun q => Bc m c (ix1 q) := funext fun q => V_v5_apply m c q
  rw [hb]
  rfl

/-! ## Result window 7 -/

/-- An index of the array is in point `t`'s block iff each coordinate is in the block's range on its axis. -/
theorem mem_blk7 (t : Fin cfg0.N) (i : S4096x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v6_1).slice (win0_7.rect t)).set ↔ _
  rw [View.set_slice_whole, Rect.mem_set_unit]
  exact Iff.rfl

/-- What point `t` writes back is block `t` of the specification's array of what the launch found. -/
theorem flushed7_eq (c : Dev nD) (t : Fin cfg0.N) :
    (dats m 0 c).flushed 7 t = ((cfg0.win 7).blk t).view.read (Elt Ideal) (Cert.Lstm.outC (V m c main_arg0) (V m c main_arg1) (V m c main_arg2) (V m c main_v1) (V m c main_v3) (fun q => (V m c main_v5 : S1x4096.Idx → EReal) (ix2 (0 : Fin 1) q))) := by
  show (cfg0.win 7).cut (grid0.coords t) ((dats m 0 c).after 7 t) = _
  rw [after7]
  unfold out7
  rw [View.canon_unit_zero hz]
  simp only [View.ld_unit_zero (S := S128x1024) hz, View.ld_unit_zero (S := S4096x1024) hz, View.ld_unit_zero (S := S1x4096) hz]
  obtain ⟨-, -, -, -, -, -, -, -, e0, e1, -⟩ := idx_rows t
  funext y
  obtain ⟨p, j, rfl⟩ : ∃ (p : Fin 128) (j : Fin 1024), y = ix2 p j := ⟨y 0, y 1, eq_ix2 y⟩
  have hr : t.val * 128 + p.val < 4096 := by have := t.isLt; have hN : cfg0.N = 32 := N_0; have := p.isLt; omega
  refine (Cert.KernelIdeal.BlockValue.pay6_apply (iblk m c 0 t) (iblk m c 1 t) (iblk m c 2 t) (iblk m c 3 t) (iblk m c 4 t) (iblk m c 5 t) p j).trans ?_
  rw [View.read_apply]
  have hemb : ((cfg0.win 7).blk t).view.emb (ix2 p j) = ix2 (⟨t.val * 128 + p.val, hr⟩ : Fin 4096) j := by
    funext a
    apply Fin.ext
    match a with
    | ⟨0, _⟩ => show win0_7.index t (0 : Fin 2) * 128 + 1 * p.val = t.val * 128 + p.val; rw [e0]; omega
    | ⟨1, _⟩ => show win0_7.index t (1 : Fin 2) * 1024 + 1 * j.val = j.val; rw [e1]; omega
  rw [hemb]
  show _ = Cert.Lstm.cellC (Cert.Lstm.rowOf (V m c main_arg0) ⟨t.val * 128 + p.val, hr⟩) (Cert.Lstm.rowOf (V m c main_arg1) ⟨t.val * 128 + p.val, hr⟩) (Cert.Lstm.rowOf (V m c main_arg2) ⟨t.val * 128 + p.val, hr⟩) (V m c main_v1) (V m c main_v3) (fun q => (V m c main_v5 : S1x4096.Idx → EReal) (ix2 (0 : Fin 1) q)) j
  have h0 : (fun k : Fin 1024 => (iblk m c 0 t : Vec Ideal S128x1024 .f32) (ix2 p k)) = Cert.Lstm.rowOf (V m c main_arg0) ⟨t.val * 128 + p.val, hr⟩ :=
    funext fun k => iblk0_apply m c t p k _ rfl
  have h1 : (fun k : Fin 1024 => (iblk m c 1 t : Vec Ideal S128x1024 .f32) (ix2 p k)) = Cert.Lstm.rowOf (V m c main_arg1) ⟨t.val * 128 + p.val, hr⟩ :=
    funext fun k => iblk1_apply m c t p k _ rfl
  have h2 : (fun k : Fin 1024 => (iblk m c 2 t : Vec Ideal S128x1024 .f32) (ix2 p k)) = Cert.Lstm.rowOf (V m c main_arg2) ⟨t.val * 128 + p.val, hr⟩ :=
    funext fun k => iblk2_apply m c t p k _ rfl
  rw [h0, h1, h2, iblk3_eq, iblk4_eq, iblk5_eq]

/-- The 32 blocks cover the array: row r is in the block of point r / 128. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 32 := N_0
  refine ⟨⟨(i 0).val / 128, by omega⟩, flush0_7 _, ?_⟩
  rw [mem_blk7]
  obtain ⟨-, -, -, -, -, -, -, -, e0, e1, -⟩ := idx_rows ⟨(i 0).val / 128, by omega⟩
  intro a
  match a with
  | ⟨0, _⟩ => show win0_7.index _ (0 : Fin 2) * 128 ≤ (i 0).val ∧ (i 0).val < win0_7.index _ (0 : Fin 2) * 128 + 128; rw [e0]; show (i 0).val / 128 * 128 ≤ (i 0).val ∧ (i 0).val < (i 0).val / 128 * 128 + 128; omega
  | ⟨1, _⟩ => show win0_7.index _ (1 : Fin 2) * 1024 ≤ (i 1).val ∧ (i 1).val < win0_7.index _ (1 : Fin 2) * 1024 + 1024; rw [e1]; omega

/-- The result array after the run, as a function of @main's arguments. -/
theorem final7 (c : Dev nD) : (dats m 0 c).arrAt 7 cfg0.N = Cert.Lstm.outC (m ((c : Thread nD τ).loc main_arg0)) (m ((c : Thread nD τ).loc main_arg1)) (m ((c : Thread nD τ).loc main_arg2)) (Wx m c) (Wh m c) (fun q => Bc m c (ix1 q)) := by
  rw [(dats m 0 c).arrAt_eq_of_cover 7 (Cert.Lstm.outC (V m c main_arg0) (V m c main_arg1) (V m c main_arg2) (V m c main_v1) (V m c main_v3) (fun q => (V m c main_v5 : S1x4096.Idx → EReal) (ix2 (0 : Fin 1) q))) (fun t _ => flushed7_eq m c t) (cover7)]
  rw [V_main_arg0, V_main_arg1, V_main_arg2, V_v1, V_v3]
  have hb : (fun q : Fin 4096 => (V m c main_v5 : S1x4096.Idx → EReal) (ix2 (0 : Fin 1) q)) = fun q => Bc m c (ix1 q) := funext fun q => V_v5_apply m c q
  rw [hb]
  rfl

/-! ## Result window 8 -/

/-- An index of the array is in point `t`'s block iff each coordinate is in the block's range on its axis. -/
theorem mem_blk8 (t : Fin cfg0.N) (i : S4096x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v6_2).slice (win0_8.rect t)).set ↔ _
  rw [View.set_slice_whole, Rect.mem_set_unit]
  exact Iff.rfl

/-- What point `t` writes back is block `t` of the specification's array of what the launch found. -/
theorem flushed8_eq (c : Dev nD) (t : Fin cfg0.N) :
    (dats m 0 c).flushed 8 t = ((cfg0.win 8).blk t).view.read (Elt Ideal) (Cert.Lstm.outI (V m c main_arg0) (V m c main_arg1) (V m c main_v1) (V m c main_v3) (fun q => (V m c main_v5 : S1x4096.Idx → EReal) (ix2 (0 : Fin 1) q))) := by
  show (cfg0.win 8).cut (grid0.coords t) ((dats m 0 c).after 8 t) = _
  rw [after8]
  unfold out8
  rw [View.canon_unit_zero hz]
  simp only [View.ld_unit_zero (S := S128x1024) hz, View.ld_unit_zero (S := S4096x1024) hz, View.ld_unit_zero (S := S1x4096) hz]
  obtain ⟨-, -, -, -, -, -, -, -, -, -, e0, e1, -⟩ := idx_rows t
  funext y
  obtain ⟨p, j, rfl⟩ : ∃ (p : Fin 128) (j : Fin 1024), y = ix2 p j := ⟨y 0, y 1, eq_ix2 y⟩
  have hr : t.val * 128 + p.val < 4096 := by have := t.isLt; have hN : cfg0.N = 32 := N_0; have := p.isLt; omega
  refine (Cert.KernelIdeal.BlockValue.pay2_apply (iblk m c 0 t) (iblk m c 1 t) (iblk m c 3 t) (iblk m c 4 t) (iblk m c 5 t) p j).trans ?_
  rw [View.read_apply]
  have hemb : ((cfg0.win 8).blk t).view.emb (ix2 p j) = ix2 (⟨t.val * 128 + p.val, hr⟩ : Fin 4096) j := by
    funext a
    apply Fin.ext
    match a with
    | ⟨0, _⟩ => show win0_8.index t (0 : Fin 2) * 128 + 1 * p.val = t.val * 128 + p.val; rw [e0]; omega
    | ⟨1, _⟩ => show win0_8.index t (1 : Fin 2) * 1024 + 1 * j.val = j.val; rw [e1]; omega
  rw [hemb]
  show _ = Cert.Lstm.gateI (Cert.Lstm.rowOf (V m c main_arg0) ⟨t.val * 128 + p.val, hr⟩) (Cert.Lstm.rowOf (V m c main_arg1) ⟨t.val * 128 + p.val, hr⟩) (V m c main_v1) (V m c main_v3) (fun q => (V m c main_v5 : S1x4096.Idx → EReal) (ix2 (0 : Fin 1) q)) j
  have h0 : (fun k : Fin 1024 => (iblk m c 0 t : Vec Ideal S128x1024 .f32) (ix2 p k)) = Cert.Lstm.rowOf (V m c main_arg0) ⟨t.val * 128 + p.val, hr⟩ :=
    funext fun k => iblk0_apply m c t p k _ rfl
  have h1 : (fun k : Fin 1024 => (iblk m c 1 t : Vec Ideal S128x1024 .f32) (ix2 p k)) = Cert.Lstm.rowOf (V m c main_arg1) ⟨t.val * 128 + p.val, hr⟩ :=
    funext fun k => iblk1_apply m c t p k _ rfl
  rw [h0, h1, iblk3_eq, iblk4_eq, iblk5_eq]

/-- The 32 blocks cover the array: row r is in the block of point r / 128. -/
theorem cover8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  have hN : cfg0.N = 32 := N_0
  refine ⟨⟨(i 0).val / 128, by omega⟩, flush0_8 _, ?_⟩
  rw [mem_blk8]
  obtain ⟨-, -, -, -, -, -, -, -, -, -, e0, e1, -⟩ := idx_rows ⟨(i 0).val / 128, by omega⟩
  intro a
  match a with
  | ⟨0, _⟩ => show win0_8.index _ (0 : Fin 2) * 128 ≤ (i 0).val ∧ (i 0).val < win0_8.index _ (0 : Fin 2) * 128 + 128; rw [e0]; show (i 0).val / 128 * 128 ≤ (i 0).val ∧ (i 0).val < (i 0).val / 128 * 128 + 128; omega
  | ⟨1, _⟩ => show win0_8.index _ (1 : Fin 2) * 1024 ≤ (i 1).val ∧ (i 1).val < win0_8.index _ (1 : Fin 2) * 1024 + 1024; rw [e1]; omega

/-- The result array after the run, as a function of @main's arguments. -/
theorem final8 (c : Dev nD) : (dats m 0 c).arrAt 8 cfg0.N = Cert.Lstm.outI (m ((c : Thread nD τ).loc main_arg0)) (m ((c : Thread nD τ).loc main_arg1)) (Wx m c) (Wh m c) (fun q => Bc m c (ix1 q)) := by
  rw [(dats m 0 c).arrAt_eq_of_cover 8 (Cert.Lstm.outI (V m c main_arg0) (V m c main_arg1) (V m c main_v1) (V m c main_v3) (fun q => (V m c main_v5 : S1x4096.Idx → EReal) (ix2 (0 : Fin 1) q))) (fun t _ => flushed8_eq m c t) (cover8)]
  rw [V_main_arg0, V_main_arg1, V_v1, V_v3]
  have hb : (fun q : Fin 4096 => (V m c main_v5 : S1x4096.Idx → EReal) (ix2 (0 : Fin 1) q)) = fun q => Bc m c (ix1 q) := funext fun q => V_v5_apply m c q
  rw [hb]
  rfl

/-! ## Result window 9 -/

/-- An index of the array is in point `t`'s block iff each coordinate is in the block's range on its axis. -/
theorem mem_blk9 (t : Fin cfg0.N) (i : S4096x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v6_3).slice (win0_9.rect t)).set ↔ _
  rw [View.set_slice_whole, Rect.mem_set_unit]
  exact Iff.rfl

/-- What point `t` writes back is block `t` of the specification's array of what the launch found. -/
theorem flushed9_eq (c : Dev nD) (t : Fin cfg0.N) :
    (dats m 0 c).flushed 9 t = ((cfg0.win 9).blk t).view.read (Elt Ideal) (Cert.Lstm.outF (V m c main_arg0) (V m c main_arg1) (V m c main_v1) (V m c main_v3) (fun q => (V m c main_v5 : S1x4096.Idx → EReal) (ix2 (0 : Fin 1) q))) := by
  show (cfg0.win 9).cut (grid0.coords t) ((dats m 0 c).after 9 t) = _
  rw [after9]
  unfold out9
  rw [View.canon_unit_zero hz]
  simp only [View.ld_unit_zero (S := S128x1024) hz, View.ld_unit_zero (S := S4096x1024) hz, View.ld_unit_zero (S := S1x4096) hz]
  obtain ⟨-, -, -, -, -, -, -, -, -, -, -, -, e0, e1, -⟩ := idx_rows t
  funext y
  obtain ⟨p, j, rfl⟩ : ∃ (p : Fin 128) (j : Fin 1024), y = ix2 p j := ⟨y 0, y 1, eq_ix2 y⟩
  have hr : t.val * 128 + p.val < 4096 := by have := t.isLt; have hN : cfg0.N = 32 := N_0; have := p.isLt; omega
  refine (Cert.KernelIdeal.BlockValue.pay3_apply (iblk m c 0 t) (iblk m c 1 t) (iblk m c 3 t) (iblk m c 4 t) (iblk m c 5 t) p j).trans ?_
  rw [View.read_apply]
  have hemb : ((cfg0.win 9).blk t).view.emb (ix2 p j) = ix2 (⟨t.val * 128 + p.val, hr⟩ : Fin 4096) j := by
    funext a
    apply Fin.ext
    match a with
    | ⟨0, _⟩ => show win0_9.index t (0 : Fin 2) * 128 + 1 * p.val = t.val * 128 + p.val; rw [e0]; omega
    | ⟨1, _⟩ => show win0_9.index t (1 : Fin 2) * 1024 + 1 * j.val = j.val; rw [e1]; omega
  rw [hemb]
  show _ = Cert.Lstm.gateF (Cert.Lstm.rowOf (V m c main_arg0) ⟨t.val * 128 + p.val, hr⟩) (Cert.Lstm.rowOf (V m c main_arg1) ⟨t.val * 128 + p.val, hr⟩) (V m c main_v1) (V m c main_v3) (fun q => (V m c main_v5 : S1x4096.Idx → EReal) (ix2 (0 : Fin 1) q)) j
  have h0 : (fun k : Fin 1024 => (iblk m c 0 t : Vec Ideal S128x1024 .f32) (ix2 p k)) = Cert.Lstm.rowOf (V m c main_arg0) ⟨t.val * 128 + p.val, hr⟩ :=
    funext fun k => iblk0_apply m c t p k _ rfl
  have h1 : (fun k : Fin 1024 => (iblk m c 1 t : Vec Ideal S128x1024 .f32) (ix2 p k)) = Cert.Lstm.rowOf (V m c main_arg1) ⟨t.val * 128 + p.val, hr⟩ :=
    funext fun k => iblk1_apply m c t p k _ rfl
  rw [h0, h1, iblk3_eq, iblk4_eq, iblk5_eq]

/-- The 32 blocks cover the array: row r is in the block of point r / 128. -/
theorem cover9 (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  have hN : cfg0.N = 32 := N_0
  refine ⟨⟨(i 0).val / 128, by omega⟩, flush0_9 _, ?_⟩
  rw [mem_blk9]
  obtain ⟨-, -, -, -, -, -, -, -, -, -, -, -, e0, e1, -⟩ := idx_rows ⟨(i 0).val / 128, by omega⟩
  intro a
  match a with
  | ⟨0, _⟩ => show win0_9.index _ (0 : Fin 2) * 128 ≤ (i 0).val ∧ (i 0).val < win0_9.index _ (0 : Fin 2) * 128 + 128; rw [e0]; show (i 0).val / 128 * 128 ≤ (i 0).val ∧ (i 0).val < (i 0).val / 128 * 128 + 128; omega
  | ⟨1, _⟩ => show win0_9.index _ (1 : Fin 2) * 1024 ≤ (i 1).val ∧ (i 1).val < win0_9.index _ (1 : Fin 2) * 1024 + 1024; rw [e1]; omega

/-- The result array after the run, as a function of @main's arguments. -/
theorem final9 (c : Dev nD) : (dats m 0 c).arrAt 9 cfg0.N = Cert.Lstm.outF (m ((c : Thread nD τ).loc main_arg0)) (m ((c : Thread nD τ).loc main_arg1)) (Wx m c) (Wh m c) (fun q => Bc m c (ix1 q)) := by
  rw [(dats m 0 c).arrAt_eq_of_cover 9 (Cert.Lstm.outF (V m c main_arg0) (V m c main_arg1) (V m c main_v1) (V m c main_v3) (fun q => (V m c main_v5 : S1x4096.Idx → EReal) (ix2 (0 : Fin 1) q))) (fun t _ => flushed9_eq m c t) (cover9)]
  rw [V_main_arg0, V_main_arg1, V_v1, V_v3]
  have hb : (fun q : Fin 4096 => (V m c main_v5 : S1x4096.Idx → EReal) (ix2 (0 : Fin 1) q)) = fun q => Bc m c (ix1 q) := funext fun q => V_v5_apply m c q
  rw [hb]
  rfl

/-! ## Result window 10 -/

/-- An index of the array is in point `t`'s block iff each coordinate is in the block's range on its axis. -/
theorem mem_blk10 (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v6_4).slice (win0_10.rect t)).set ↔ _
  rw [View.set_slice_whole, Rect.mem_set_unit]
  exact Iff.rfl

/-- What point `t` writes back is block `t` of the specification's array of what the launch found. -/
theorem flushed10_eq (c : Dev nD) (t : Fin cfg0.N) :
    (dats m 0 c).flushed 10 t = ((cfg0.win 10).blk t).view.read (Elt Ideal) (Cert.Lstm.outG (V m c main_arg0) (V m c main_arg1) (V m c main_v1) (V m c main_v3) (fun q => (V m c main_v5 : S1x4096.Idx → EReal) (ix2 (0 : Fin 1) q))) := by
  show (cfg0.win 10).cut (grid0.coords t) ((dats m 0 c).after 10 t) = _
  rw [after10]
  unfold out10
  rw [View.canon_unit_zero hz]
  simp only [View.ld_unit_zero (S := S128x1024) hz, View.ld_unit_zero (S := S4096x1024) hz, View.ld_unit_zero (S := S1x4096) hz]
  obtain ⟨-, -, -, -, -, -, -, -, -, -, -, -, -, -, e0, e1, -⟩ := idx_rows t
  funext y
  obtain ⟨p, j, rfl⟩ : ∃ (p : Fin 128) (j : Fin 1024), y = ix2 p j := ⟨y 0, y 1, eq_ix2 y⟩
  have hr : t.val * 128 + p.val < 4096 := by have := t.isLt; have hN : cfg0.N = 32 := N_0; have := p.isLt; omega
  refine (Cert.KernelIdeal.BlockValue.pay4_apply (iblk m c 0 t) (iblk m c 1 t) (iblk m c 3 t) (iblk m c 4 t) (iblk m c 5 t) p j).trans ?_
  rw [View.read_apply]
  have hemb : ((cfg0.win 10).blk t).view.emb (ix2 p j) = ix2 (⟨t.val * 128 + p.val, hr⟩ : Fin 4096) j := by
    funext a
    apply Fin.ext
    match a with
    | ⟨0, _⟩ => show win0_10.index t (0 : Fin 2) * 128 + 1 * p.val = t.val * 128 + p.val; rw [e0]; omega
    | ⟨1, _⟩ => show win0_10.index t (1 : Fin 2) * 1024 + 1 * j.val = j.val; rw [e1]; omega
  rw [hemb]
  show _ = Cert.Lstm.gateG (Cert.Lstm.rowOf (V m c main_arg0) ⟨t.val * 128 + p.val, hr⟩) (Cert.Lstm.rowOf (V m c main_arg1) ⟨t.val * 128 + p.val, hr⟩) (V m c main_v1) (V m c main_v3) (fun q => (V m c main_v5 : S1x4096.Idx → EReal) (ix2 (0 : Fin 1) q)) j
  have h0 : (fun k : Fin 1024 => (iblk m c 0 t : Vec Ideal S128x1024 .f32) (ix2 p k)) = Cert.Lstm.rowOf (V m c main_arg0) ⟨t.val * 128 + p.val, hr⟩ :=
    funext fun k => iblk0_apply m c t p k _ rfl
  have h1 : (fun k : Fin 1024 => (iblk m c 1 t : Vec Ideal S128x1024 .f32) (ix2 p k)) = Cert.Lstm.rowOf (V m c main_arg1) ⟨t.val * 128 + p.val, hr⟩ :=
    funext fun k => iblk1_apply m c t p k _ rfl
  rw [h0, h1, iblk3_eq, iblk4_eq, iblk5_eq]

/-- The 32 blocks cover the array: row r is in the block of point r / 128. -/
theorem cover10 (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  have hN : cfg0.N = 32 := N_0
  refine ⟨⟨(i 0).val / 128, by omega⟩, flush0_10 _, ?_⟩
  rw [mem_blk10]
  obtain ⟨-, -, -, -, -, -, -, -, -, -, -, -, -, -, e0, e1, -⟩ := idx_rows ⟨(i 0).val / 128, by omega⟩
  intro a
  match a with
  | ⟨0, _⟩ => show win0_10.index _ (0 : Fin 2) * 128 ≤ (i 0).val ∧ (i 0).val < win0_10.index _ (0 : Fin 2) * 128 + 128; rw [e0]; show (i 0).val / 128 * 128 ≤ (i 0).val ∧ (i 0).val < (i 0).val / 128 * 128 + 128; omega
  | ⟨1, _⟩ => show win0_10.index _ (1 : Fin 2) * 1024 ≤ (i 1).val ∧ (i 1).val < win0_10.index _ (1 : Fin 2) * 1024 + 1024; rw [e1]; omega

/-- The result array after the run, as a function of @main's arguments. -/
theorem final10 (c : Dev nD) : (dats m 0 c).arrAt 10 cfg0.N = Cert.Lstm.outG (m ((c : Thread nD τ).loc main_arg0)) (m ((c : Thread nD τ).loc main_arg1)) (Wx m c) (Wh m c) (fun q => Bc m c (ix1 q)) := by
  rw [(dats m 0 c).arrAt_eq_of_cover 10 (Cert.Lstm.outG (V m c main_arg0) (V m c main_arg1) (V m c main_v1) (V m c main_v3) (fun q => (V m c main_v5 : S1x4096.Idx → EReal) (ix2 (0 : Fin 1) q))) (fun t _ => flushed10_eq m c t) (cover10)]
  rw [V_main_arg0, V_main_arg1, V_v1, V_v3]
  have hb : (fun q : Fin 4096 => (V m c main_v5 : S1x4096.Idx → EReal) (ix2 (0 : Fin 1) q)) = fun q => Bc m c (ix1 q) := funext fun q => V_v5_apply m c q
  rw [hb]
  rfl

/-! ## Result window 11 -/

/-- An index of the array is in point `t`'s block iff each coordinate is in the block's range on its axis. -/
theorem mem_blk11 (t : Fin cfg0.N) (i : S4096x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v6_5).slice (win0_11.rect t)).set ↔ _
  rw [View.set_slice_whole, Rect.mem_set_unit]
  exact Iff.rfl

/-- What point `t` writes back is block `t` of the specification's array of what the launch found. -/
theorem flushed11_eq (c : Dev nD) (t : Fin cfg0.N) :
    (dats m 0 c).flushed 11 t = ((cfg0.win 11).blk t).view.read (Elt Ideal) (Cert.Lstm.outO (V m c main_arg0) (V m c main_arg1) (V m c main_v1) (V m c main_v3) (fun q => (V m c main_v5 : S1x4096.Idx → EReal) (ix2 (0 : Fin 1) q))) := by
  show (cfg0.win 11).cut (grid0.coords t) ((dats m 0 c).after 11 t) = _
  rw [after11]
  unfold out11
  rw [View.canon_unit_zero hz]
  simp only [View.ld_unit_zero (S := S128x1024) hz, View.ld_unit_zero (S := S4096x1024) hz, View.ld_unit_zero (S := S1x4096) hz]
  obtain ⟨-, -, -, -, -, -, -, -, -, -, -, -, -, -, -, -, e0, e1⟩ := idx_rows t
  funext y
  obtain ⟨p, j, rfl⟩ : ∃ (p : Fin 128) (j : Fin 1024), y = ix2 p j := ⟨y 0, y 1, eq_ix2 y⟩
  have hr : t.val * 128 + p.val < 4096 := by have := t.isLt; have hN : cfg0.N = 32 := N_0; have := p.isLt; omega
  refine (Cert.KernelIdeal.BlockValue.pay5_apply (iblk m c 0 t) (iblk m c 1 t) (iblk m c 3 t) (iblk m c 4 t) (iblk m c 5 t) p j).trans ?_
  rw [View.read_apply]
  have hemb : ((cfg0.win 11).blk t).view.emb (ix2 p j) = ix2 (⟨t.val * 128 + p.val, hr⟩ : Fin 4096) j := by
    funext a
    apply Fin.ext
    match a with
    | ⟨0, _⟩ => show win0_11.index t (0 : Fin 2) * 128 + 1 * p.val = t.val * 128 + p.val; rw [e0]; omega
    | ⟨1, _⟩ => show win0_11.index t (1 : Fin 2) * 1024 + 1 * j.val = j.val; rw [e1]; omega
  rw [hemb]
  show _ = Cert.Lstm.gateO (Cert.Lstm.rowOf (V m c main_arg0) ⟨t.val * 128 + p.val, hr⟩) (Cert.Lstm.rowOf (V m c main_arg1) ⟨t.val * 128 + p.val, hr⟩) (V m c main_v1) (V m c main_v3) (fun q => (V m c main_v5 : S1x4096.Idx → EReal) (ix2 (0 : Fin 1) q)) j
  have h0 : (fun k : Fin 1024 => (iblk m c 0 t : Vec Ideal S128x1024 .f32) (ix2 p k)) = Cert.Lstm.rowOf (V m c main_arg0) ⟨t.val * 128 + p.val, hr⟩ :=
    funext fun k => iblk0_apply m c t p k _ rfl
  have h1 : (fun k : Fin 1024 => (iblk m c 1 t : Vec Ideal S128x1024 .f32) (ix2 p k)) = Cert.Lstm.rowOf (V m c main_arg1) ⟨t.val * 128 + p.val, hr⟩ :=
    funext fun k => iblk1_apply m c t p k _ rfl
  rw [h0, h1, iblk3_eq, iblk4_eq, iblk5_eq]

/-- The 32 blocks cover the array: row r is in the block of point r / 128. -/
theorem cover11 (i : S4096x1024.Idx) : ∃ t : Fin cfg0.N, (cfg0.win 11).flush t = true ∧ i ∈ ((cfg0.win 11).blk t).view.set := by
  have hi0 : (i 0).val < 4096 := (i 0).isLt
  have hi1 : (i 1).val < 1024 := (i 1).isLt
  have hN : cfg0.N = 32 := N_0
  refine ⟨⟨(i 0).val / 128, by omega⟩, flush0_11 _, ?_⟩
  rw [mem_blk11]
  obtain ⟨-, -, -, -, -, -, -, -, -, -, -, -, -, -, -, -, e0, e1⟩ := idx_rows ⟨(i 0).val / 128, by omega⟩
  intro a
  match a with
  | ⟨0, _⟩ => show win0_11.index _ (0 : Fin 2) * 128 ≤ (i 0).val ∧ (i 0).val < win0_11.index _ (0 : Fin 2) * 128 + 128; rw [e0]; show (i 0).val / 128 * 128 ≤ (i 0).val ∧ (i 0).val < (i 0).val / 128 * 128 + 128; omega
  | ⟨1, _⟩ => show win0_11.index _ (1 : Fin 2) * 1024 ≤ (i 1).val ∧ (i 1).val < win0_11.index _ (1 : Fin 2) * 1024 + 1024; rw [e1]; omega

/-- The result array after the run, as a function of @main's arguments. -/
theorem final11 (c : Dev nD) : (dats m 0 c).arrAt 11 cfg0.N = Cert.Lstm.outO (m ((c : Thread nD τ).loc main_arg0)) (m ((c : Thread nD τ).loc main_arg1)) (Wx m c) (Wh m c) (fun q => Bc m c (ix1 q)) := by
  rw [(dats m 0 c).arrAt_eq_of_cover 11 (Cert.Lstm.outO (V m c main_arg0) (V m c main_arg1) (V m c main_v1) (V m c main_v3) (fun q => (V m c main_v5 : S1x4096.Idx → EReal) (ix2 (0 : Fin 1) q))) (fun t _ => flushed11_eq m c t) (cover11)]
  rw [V_main_arg0, V_main_arg1, V_v1, V_v3]
  have hb : (fun q : Fin 4096 => (V m c main_v5 : S1x4096.Idx → EReal) (ix2 (0 : Fin 1) q)) = fun q => Bc m c (ix1 q) := funext fun q => V_v5_apply m c q
  rw [hb]
  rfl

/-! ## The run, read -/

/-- The new hidden state of the whole batch, from @main's arguments. -/
def resH (c : Dev nD) : Buf (Elt Ideal) ((c.tc : Thread nD τ).loc main_v6_0) :=
  Cert.Lstm.outH (m ((c : Thread nD τ).loc main_arg0)) (m ((c : Thread nD τ).loc main_arg1)) (m ((c : Thread nD τ).loc main_arg2)) (Wx m c) (Wh m c) (fun q => Bc m c (ix1 q))
/-- The new cell state of the whole batch, from @main's arguments. -/
def resC (c : Dev nD) : Buf (Elt Ideal) ((c.tc : Thread nD τ).loc main_v6_1) :=
  Cert.Lstm.outC (m ((c : Thread nD τ).loc main_arg0)) (m ((c : Thread nD τ).loc main_arg1)) (m ((c : Thread nD τ).loc main_arg2)) (Wx m c) (Wh m c) (fun q => Bc m c (ix1 q))
/-- The input gate of the whole batch, from @main's arguments. -/
def resI (c : Dev nD) : Buf (Elt Ideal) ((c.tc : Thread nD τ).loc main_v6_2) :=
  Cert.Lstm.outI (m ((c : Thread nD τ).loc main_arg0)) (m ((c : Thread nD τ).loc main_arg1)) (Wx m c) (Wh m c) (fun q => Bc m c (ix1 q))
/-- The forget gate of the whole batch, from @main's arguments. -/
def resF (c : Dev nD) : Buf (Elt Ideal) ((c.tc : Thread nD τ).loc main_v6_3) :=
  Cert.Lstm.outF (m ((c : Thread nD τ).loc main_arg0)) (m ((c : Thread nD τ).loc main_arg1)) (Wx m c) (Wh m c) (fun q => Bc m c (ix1 q))
/-- The candidate of the whole batch, from @main's arguments. -/
def resG (c : Dev nD) : Buf (Elt Ideal) ((c.tc : Thread nD τ).loc main_v6_4) :=
  Cert.Lstm.outG (m ((c : Thread nD τ).loc main_arg0)) (m ((c : Thread nD τ).loc main_arg1)) (Wx m c) (Wh m c) (fun q => Bc m c (ix1 q))
/-- The output gate of the whole batch, from @main's arguments. -/
def resO (c : Dev nD) : Buf (Elt Ideal) ((c.tc : Thread nD τ).loc main_v6_5) :=
  Cert.Lstm.outO (m ((c : Thread nD τ).loc main_arg0)) (m ((c : Thread nD τ).loc main_arg1)) (Wx m c) (Wh m c) (fun q => Bc m c (ix1 q))

/-- Every weakly fair execution of the kernel program terminates with each of its six results at the specification's
    array of @main's arguments, and the arguments unchanged. -/
theorem run : θ_run defs (onTc (τ := τ) (main (F := Ideal))) ⟨m, fun _ => 0, ρ⟩ fun r => ∀ c : Dev nD,
      r.2.mem ((c.tc : Thread nD τ).loc main_v6_0) = resH m c
      ∧ r.2.mem ((c.tc : Thread nD τ).loc main_v6_1) = resC m c
      ∧ r.2.mem ((c.tc : Thread nD τ).loc main_v6_2) = resI m c
      ∧ r.2.mem ((c.tc : Thread nD τ).loc main_v6_3) = resF m c
      ∧ r.2.mem ((c.tc : Thread nD τ).loc main_v6_4) = resG m c
      ∧ r.2.mem ((c.tc : Thread nD τ).loc main_v6_5) = resO m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h c).1 6).trans (final6 m c),
      ((h c).1 7).trans (final7 m c),
      ((h c).1 8).trans (final8 m c),
      ((h c).1 9).trans (final9 m c),
      ((h c).1 10).trans (final10 m c),
      ((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Cell

end
-- ==== Proof.RefLstm.lean ====
/-
  The reference program computes the fused long short-term memory step of the specification.

  The reference joins the four gates' weight matrices into one [4096, 1024] array per operand (and the four biases into
  one [4096] array), transposes each joined matrix and contracts the activations' second axis with the transposed
  matrix's first: entry (r, q) of the product is  ∑ k, x(r,k) · W(q,k),  the specification's sum term by term. The two
  products and the bias, broadcast along the rows, are added; the four gates read the column blocks that start at 0,
  1024, 2048 and 3072; the logistic is spelled  1 / (1 + exp (-z)),  which is the definition of the ideal logistic; the
  cell and hidden states are the pointwise combinations of the specification. Only definitions are unfolded and index
  functions identified: no law of arithmetic is used. The three joined arrays stay as the reference's own stages.
-/
import proofs.«145631_j27659589386821_2_alg».proof.Proof.Gen.ReferenceIdeal.Read
import proofs.«145631_j27659589386821_2_alg».proof.Proof.LstmSpec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Lstm

variable (x0 x1 x2 : (⟨S4096x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))
  (x9 : (⟨S1024x1024, .f32⟩ : BufTy).Contents (Elt Ideal)) (x10 : (⟨S1024, .f32⟩ : BufTy).Contents (Elt Ideal))
  (x11 x12 x13 x14 : (⟨S1024x1024, .f32⟩ : BufTy).Contents (Elt Ideal))

/-! ## The pre-activation -/

/-- Entry (r, q) of the first product: the contraction of row r of the input with row q of the joined input weights. -/
theorem dotX_at (r q : Fin 4096) :
    Read.val_main_v4 (F := Ideal) x0 x3 x5 x7 x9 (ix2 r q)
      = ∑ k : Fin 1024, rowOf x0 r k * (Read.val_main_v0 (F := Ideal) x3 x5 x7 x9) (ix2 q k) := by
  rw [Read.val_main_v4_apply]
  refine Finset.sum_congr rfl fun k _ => ?_
  have el : Read.lidx_main_v4 (ix2 r q) k = ix2 r k := funext fun a => Fin.ext (by match a with | ⟨0, _⟩ => rfl | ⟨1, _⟩ => rfl)
  have er : Read.idx_main_v3 (Read.ridx_main_v4 (ix2 r q) k) = ix2 q k := funext fun a => Fin.ext (by match a with | ⟨0, _⟩ => rfl | ⟨1, _⟩ => rfl)
  rw [Read.val_main_v3_apply, el, er]
  rfl

/-- Entry (r, q) of the second product: the same contraction of the previous hidden state with the joined recurrent weights. -/
theorem dotH_at (r q : Fin 4096) :
    Read.val_main_v6 (F := Ideal) x1 x11 x12 x13 x14 (ix2 r q)
      = ∑ k : Fin 1024, rowOf x1 r k * (Read.val_main_v1 (F := Ideal) x11 x12 x13 x14) (ix2 q k) := by
  rw [Read.val_main_v6_apply]
  refine Finset.sum_congr rfl fun k _ => ?_
  have el : Read.lidx_main_v6 (ix2 r q) k = ix2 r k := funext fun a => Fin.ext (by match a with | ⟨0, _⟩ => rfl | ⟨1, _⟩ => rfl)
  have er : Read.idx_main_v5 (Read.ridx_main_v6 (ix2 r q) k) = ix2 q k := funext fun a => Fin.ext (by match a with | ⟨0, _⟩ => rfl | ⟨1, _⟩ => rfl)
  rw [Read.val_main_v5_apply, el, er]
  rfl

/-- The bias broadcast to [1, 4096] and then along the rows reads the joined bias at the column. -/
theorem bias_at (r q : Fin 4096) :
    Read.val_main_v9 (F := Ideal) x4 x6 x8 x10 (ix2 r q) = Read.val_main_v2 (F := Ideal) x4 x6 x8 x10 (ix1 q) := by
  have e : Read.idx_main_v8 (Read.idx_main_v9 (ix2 r q)) = ix1 q :=
    funext fun a => Fin.ext (by match a with | ⟨0, _⟩ => rfl)
  rw [Read.val_main_v9_apply, Read.val_main_v8_apply, e]

/-- Entry (r, q) of the sum of the two products and the bias is the specification's pre-activation of fused column q
for batch row r. -/
theorem pre_at (r q : Fin 4096) :
    Read.val_main_v10 (F := Ideal) x0 x1 x3 x4 x5 x6 x7 x8 x9 x10 x11 x12 x13 x14 (ix2 r q)
      = Cert.Lstm.pre (rowOf x0 r) (rowOf x1 r) (Read.val_main_v0 (F := Ideal) x3 x5 x7 x9) (Read.val_main_v1 (F := Ideal) x11 x12 x13 x14) (fun q => Read.val_main_v2 (F := Ideal) x4 x6 x8 x10 (ix1 q)) q := by
  rw [Read.val_main_v10_apply, Read.val_main_v7_apply, dotX_at, dotH_at, bias_at]
  simp only [Ideal.addf_def]
  rfl

/-! ## The gates: column blocks of the pre-activation -/

/-- The input gate: the logistic, spelled 1 / (1 + exp (-z)), of the block of columns starting at 0. -/
theorem gateI_at (r : Fin 4096) (j : Fin 1024) :
    Read.val_main_v20 (F := Ideal) x0 x1 x3 x4 x5 x6 x7 x8 x9 x10 x11 x12 x13 x14 (ix2 r j)
      = Cert.Lstm.gateI (rowOf x0 r) (rowOf x1 r) (Read.val_main_v0 (F := Ideal) x3 x5 x7 x9) (Read.val_main_v1 (F := Ideal) x11 x12 x13 x14) (fun q => Read.val_main_v2 (F := Ideal) x4 x6 x8 x10 (ix1 q)) j := by
  have e : Read.idx_main_v11 (ix2 r j) = ix2 r (col 0 (by decide) j) :=
    funext fun a => Fin.ext (by match a with | ⟨0, _⟩ => rfl | ⟨1, _⟩ => exact (Nat.zero_add _).symm)
  rw [Read.val_main_v20_apply, Read.val_main_v19_apply, Read.val_main_cst_0_apply, Read.val_main_v18_apply, Read.val_main_v17_apply, Read.val_main_cst_apply, Read.val_main_v16_apply, Read.val_main_v15_apply, Read.val_main_v11_apply, e, pre_at]
  simp only [Ideal.hostDivf_def, Ideal.addf_def, Ideal.hostUnary_exp_def, Ideal.hostNegf_def, Ideal.negf_def,
    Ideal.ofBits_def, Ideal.ofBits_one_f32]
  rfl

/-- The forget gate: the same spelling of the logistic on the block of columns starting at 1024. -/
theorem gateF_at (r : Fin 4096) (j : Fin 1024) :
    Read.val_main_v26 (F := Ideal) x0 x1 x3 x4 x5 x6 x7 x8 x9 x10 x11 x12 x13 x14 (ix2 r j)
      = Cert.Lstm.gateF (rowOf x0 r) (rowOf x1 r) (Read.val_main_v0 (F := Ideal) x3 x5 x7 x9) (Read.val_main_v1 (F := Ideal) x11 x12 x13 x14) (fun q => Read.val_main_v2 (F := Ideal) x4 x6 x8 x10 (ix1 q)) j := by
  have e : Read.idx_main_v12 (ix2 r j) = ix2 r (col 1024 (by decide) j) :=
    funext fun a => Fin.ext (by match a with | ⟨0, _⟩ => rfl | ⟨1, _⟩ => rfl)
  rw [Read.val_main_v26_apply, Read.val_main_v25_apply, Read.val_main_cst_2_apply, Read.val_main_v24_apply, Read.val_main_v23_apply, Read.val_main_cst_1_apply, Read.val_main_v22_apply, Read.val_main_v21_apply, Read.val_main_v12_apply, e, pre_at]
  simp only [Ideal.hostDivf_def, Ideal.addf_def, Ideal.hostUnary_exp_def, Ideal.hostNegf_def, Ideal.negf_def,
    Ideal.ofBits_def, Ideal.ofBits_one_f32]
  rfl

/-- The candidate: the hyperbolic tangent of the block of columns starting at 2048. -/
theorem gateG_at (r : Fin 4096) (j : Fin 1024) :
    Read.val_main_v27 (F := Ideal) x0 x1 x3 x4 x5 x6 x7 x8 x9 x10 x11 x12 x13 x14 (ix2 r j)
      = Cert.Lstm.gateG (rowOf x0 r) (rowOf x1 r) (Read.val_main_v0 (F := Ideal) x3 x5 x7 x9) (Read.val_main_v1 (F := Ideal) x11 x12 x13 x14) (fun q => Read.val_main_v2 (F := Ideal) x4 x6 x8 x10 (ix1 q)) j := by
  have e : Read.idx_main_v13 (ix2 r j) = ix2 r (col 2048 (by decide) j) := funext fun a => Fin.ext (by match a with | ⟨0, _⟩ => rfl | ⟨1, _⟩ => rfl)
  rw [Read.val_main_v27_apply, Read.val_main_v13_apply, e, pre_at]
  simp only [Ideal.hostUnary_tanh_def]
  rfl

/-- The output gate: the logistic on the block of columns starting at 3072. -/
theorem gateO_at (r : Fin 4096) (j : Fin 1024) :
    Read.val_main_v33 (F := Ideal) x0 x1 x3 x4 x5 x6 x7 x8 x9 x10 x11 x12 x13 x14 (ix2 r j)
      = Cert.Lstm.gateO (rowOf x0 r) (rowOf x1 r) (Read.val_main_v0 (F := Ideal) x3 x5 x7 x9) (Read.val_main_v1 (F := Ideal) x11 x12 x13 x14) (fun q => Read.val_main_v2 (F := Ideal) x4 x6 x8 x10 (ix1 q)) j := by
  have e : Read.idx_main_v14 (ix2 r j) = ix2 r (col 3072 (by decide) j) :=
    funext fun a => Fin.ext (by match a with | ⟨0, _⟩ => rfl | ⟨1, _⟩ => rfl)
  rw [Read.val_main_v33_apply, Read.val_main_v32_apply, Read.val_main_cst_4_apply, Read.val_main_v31_apply, Read.val_main_v30_apply, Read.val_main_cst_3_apply, Read.val_main_v29_apply, Read.val_main_v28_apply, Read.val_main_v14_apply, e, pre_at]
  simp only [Ideal.hostDivf_def, Ideal.addf_def, Ideal.hostUnary_exp_def, Ideal.hostNegf_def, Ideal.negf_def,
    Ideal.ofBits_def, Ideal.ofBits_one_f32]
  rfl

/-! ## The new cell and hidden states -/

/-- The new cell state: forget gate times the previous cell state plus input gate times candidate. -/
theorem cellC_at (r : Fin 4096) (j : Fin 1024) :
    Read.val_main_v36 (F := Ideal) x0 x1 x2 x3 x4 x5 x6 x7 x8 x9 x10 x11 x12 x13 x14 (ix2 r j)
      = Cert.Lstm.cellC (rowOf x0 r) (rowOf x1 r) (rowOf x2 r) (Read.val_main_v0 (F := Ideal) x3 x5 x7 x9) (Read.val_main_v1 (F := Ideal) x11 x12 x13 x14) (fun q => Read.val_main_v2 (F := Ideal) x4 x6 x8 x10 (ix1 q)) j := by
  rw [Read.val_main_v36_apply, Read.val_main_v34_apply, Read.val_main_v35_apply, gateF_at, gateI_at, gateG_at]
  simp only [Ideal.addf_def, Ideal.mulf_def]
  rfl

/-- The new hidden state: output gate times the hyperbolic tangent of the new cell state. -/
theorem cellH_at (r : Fin 4096) (j : Fin 1024) :
    Read.val_main_v38 (F := Ideal) x0 x1 x2 x3 x4 x5 x6 x7 x8 x9 x10 x11 x12 x13 x14 (ix2 r j)
      = Cert.Lstm.cellH (rowOf x0 r) (rowOf x1 r) (rowOf x2 r) (Read.val_main_v0 (F := Ideal) x3 x5 x7 x9) (Read.val_main_v1 (F := Ideal) x11 x12 x13 x14) (fun q => Read.val_main_v2 (F := Ideal) x4 x6 x8 x10 (ix1 q)) j := by
  rw [Read.val_main_v38_apply, Read.val_main_v37_apply, gateO_at, cellC_at]
  simp only [Ideal.mulf_def, Ideal.hostUnary_tanh_def]
  rfl

/-! ## The six results as whole arrays -/

/-- The reference's new hidden state is the specification's, as a whole array. -/
theorem ref_h :
    Read.val_main_v38 (F := Ideal) x0 x1 x2 x3 x4 x5 x6 x7 x8 x9 x10 x11 x12 x13 x14
      = Cert.Lstm.outH x0 x1 x2 (Read.val_main_v0 (F := Ideal) x3 x5 x7 x9) (Read.val_main_v1 (F := Ideal) x11 x12 x13 x14) (fun q => Read.val_main_v2 (F := Ideal) x4 x6 x8 x10 (ix1 q)) := by
  funext i
  obtain ⟨r, j, rfl⟩ : ∃ (r : Fin 4096) (j : Fin 1024), i = ix2 r j := ⟨i 0, i 1, eq_ix2 i⟩
  rw [cellH_at]
  rfl

/-- The reference's new cell state is the specification's, as a whole array. -/
theorem ref_c :
    Read.val_main_v36 (F := Ideal) x0 x1 x2 x3 x4 x5 x6 x7 x8 x9 x10 x11 x12 x13 x14
      = Cert.Lstm.outC x0 x1 x2 (Read.val_main_v0 (F := Ideal) x3 x5 x7 x9) (Read.val_main_v1 (F := Ideal) x11 x12 x13 x14) (fun q => Read.val_main_v2 (F := Ideal) x4 x6 x8 x10 (ix1 q)) := by
  funext i
  obtain ⟨r, j, rfl⟩ : ∃ (r : Fin 4096) (j : Fin 1024), i = ix2 r j := ⟨i 0, i 1, eq_ix2 i⟩
  rw [cellC_at]
  rfl

/-- The reference's input gate is the specification's, as a whole array. -/
theorem ref_i :
    Read.val_main_v20 (F := Ideal) x0 x1 x3 x4 x5 x6 x7 x8 x9 x10 x11 x12 x13 x14
      = Cert.Lstm.outI x0 x1 (Read.val_main_v0 (F := Ideal) x3 x5 x7 x9) (Read.val_main_v1 (F := Ideal) x11 x12 x13 x14) (fun q => Read.val_main_v2 (F := Ideal) x4 x6 x8 x10 (ix1 q)) := by
  funext i
  obtain ⟨r, j, rfl⟩ : ∃ (r : Fin 4096) (j : Fin 1024), i = ix2 r j := ⟨i 0, i 1, eq_ix2 i⟩
  rw [gateI_at]
  rfl

/-- The reference's forget gate is the specification's, as a whole array. -/
theorem ref_f :
    Read.val_main_v26 (F := Ideal) x0 x1 x3 x4 x5 x6 x7 x8 x9 x10 x11 x12 x13 x14
      = Cert.Lstm.outF x0 x1 (Read.val_main_v0 (F := Ideal) x3 x5 x7 x9) (Read.val_main_v1 (F := Ideal) x11 x12 x13 x14) (fun q => Read.val_main_v2 (F := Ideal) x4 x6 x8 x10 (ix1 q)) := by
  funext i
  obtain ⟨r, j, rfl⟩ : ∃ (r : Fin 4096) (j : Fin 1024), i = ix2 r j := ⟨i 0, i 1, eq_ix2 i⟩
  rw [gateF_at]
  rfl

/-- The reference's candidate is the specification's, as a whole array. -/
theorem ref_g :
    Read.val_main_v27 (F := Ideal) x0 x1 x3 x4 x5 x6 x7 x8 x9 x10 x11 x12 x13 x14
      = Cert.Lstm.outG x0 x1 (Read.val_main_v0 (F := Ideal) x3 x5 x7 x9) (Read.val_main_v1 (F := Ideal) x11 x12 x13 x14) (fun q => Read.val_main_v2 (F := Ideal) x4 x6 x8 x10 (ix1 q)) := by
  funext i
  obtain ⟨r, j, rfl⟩ : ∃ (r : Fin 4096) (j : Fin 1024), i = ix2 r j := ⟨i 0, i 1, eq_ix2 i⟩
  rw [gateG_at]
  rfl

/-- The reference's output gate is the specification's, as a whole array. -/
theorem ref_o :
    Read.val_main_v33 (F := Ideal) x0 x1 x3 x4 x5 x6 x7 x8 x9 x10 x11 x12 x13 x14
      = Cert.Lstm.outO x0 x1 (Read.val_main_v0 (F := Ideal) x3 x5 x7 x9) (Read.val_main_v1 (F := Ideal) x11 x12 x13 x14) (fun q => Read.val_main_v2 (F := Ideal) x4 x6 x8 x10 (ix1 q)) := by
  funext i
  obtain ⟨r, j, rfl⟩ : ∃ (r : Fin 4096) (j : Fin 1024), i = ix2 r j := ⟨i 0, i 1, eq_ix2 i⟩
  rw [gateO_at]
  rfl

end Cert.ReferenceIdeal.RefValue

end
-- ==== Proof.lean ====
/-
  A fused long short-term memory cell step on a tiled batch, against its plain reference, on the extended reals.

  The kernel program stacks the four input-to-hidden and the four hidden-to-hidden weight matrices into two
  [4096, 1024] matrices (rounded to bf16: the identity on the extended reals), joins the four biases into one row, and
  launches one kernel on a grid of 32 blocks of 128 batch rows: per block, two matrix products against the stacked
  weights' rows, the bias added, the four gates cut out of the 4096 fused columns, the new cell and hidden states.
  The reference stacks the same matrices, transposes them and contracts against the transposes, adds the broadcast
  bias, splits the columns, and spells the logistic as 1 / (1 + exp (-z)). Entry by entry both are the specification's
  row function (Proof/LstmSpec.lean): the kernel's by the body's arithmetic read at an index and the blocks laid into
  the arrays, the reference's by its operations read one at a time. No law of arithmetic joins the two sides — the
  sums run over the same index in the same order — so the precondition is never opened.
  The three frames: the kernel program's at both instances by the launch theorem over the body's triple; the
  reference's is its run with the results dropped. The idealization rewrote nothing, so `preserves` is trivial.
-/
import proofs.«145631_j27659589386821_2_alg».proof.Defs
import proofs.«145631_j27659589386821_2_alg».proof.Proof.Gen.Kernel
import proofs.«145631_j27659589386821_2_alg».proof.Proof.Gen.Kernel.Skeleton
import proofs.«145631_j27659589386821_2_alg».proof.Proof.Gen.Kernel.Launch
import proofs.«145631_j27659589386821_2_alg».proof.Proof.Gen.Kernel.Points
import proofs.«145631_j27659589386821_2_alg».proof.Proof.Gen.KernelIdeal
import proofs.«145631_j27659589386821_2_alg».proof.Proof.Gen.KernelIdeal.Skeleton
import proofs.«145631_j27659589386821_2_alg».proof.Proof.Gen.KernelIdeal.Launch
import proofs.«145631_j27659589386821_2_alg».proof.Proof.Gen.KernelIdeal.Points
import proofs.«145631_j27659589386821_2_alg».proof.Proof.Gen.ReferenceIdeal
import proofs.«145631_j27659589386821_2_alg».proof.Proof.Gen.Pre_finite_inputs
import proofs.«145631_j27659589386821_2_alg».proof.Proof.Gen.ReferenceIdeal.Run
import proofs.«145631_j27659589386821_2_alg».proof.Proof.Gen.ReferenceIdeal.Read
import proofs.«145631_j27659589386821_2_alg».proof.Proof.KernelRun
import proofs.«145631_j27659589386821_2_alg».proof.Proof.KernelIdealValue
import proofs.«145631_j27659589386821_2_alg».proof.Proof.RefLstm
import Idealize.ShloMosaic.Adequacy
import Idealize.ShloMosaic.Init

set_option maxRecDepth 16384

noncomputable section

namespace Cert.Proof

open Idealize.ShloMosaic Idealize.ShloMosaic.TcCoe Idealize.SL.Sem

/-- The kernel program, word level: it runs to the end and leaves its arguments as given. -/
theorem frame_k : Cert.frame_Kernel := fun m ρ _ => Cert.Kernel.Cell.frame m ρ

/-- The same of its idealization. -/
theorem frame_ki : Cert.frame_KernelIdeal := fun m ρ _ => Cert.KernelIdeal.Cell.frame m ρ

/-- The reference's frame is its run with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- The idealization rewrote no operation. -/
theorem preserves : Cert.preserves_Kernel_KernelIdeal := trivial

/-- The reference's new hidden state, as a stage of the kernel program's arguments, is the kernel program's. -/
theorem same_h (m : (ℓ : Loc Cert.KernelIdeal.nD Cert.KernelIdeal.τ Cert.KernelIdeal.sig) → Buf (Elt Ideal) ℓ) (c : Dev Cert.KernelIdeal.nD) :
    Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = Cert.KernelIdeal.Cell.resH m c := by
  rw [Cert.ReferenceIdeal.RefValue.ref_h]; rfl

/-- The reference's new cell state, as a stage of the kernel program's arguments, is the kernel program's. -/
theorem same_c (m : (ℓ : Loc Cert.KernelIdeal.nD Cert.KernelIdeal.τ Cert.KernelIdeal.sig) → Buf (Elt Ideal) ℓ) (c : Dev Cert.KernelIdeal.nD) :
    Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = Cert.KernelIdeal.Cell.resC m c := by
  rw [Cert.ReferenceIdeal.RefValue.ref_c]; rfl

/-- The reference's input gate, as a stage of the kernel program's arguments, is the kernel program's. -/
theorem same_i (m : (ℓ : Loc Cert.KernelIdeal.nD Cert.KernelIdeal.τ Cert.KernelIdeal.sig) → Buf (Elt Ideal) ℓ) (c : Dev Cert.KernelIdeal.nD) :
    Cert.ReferenceIdeal.Read.val_main_v20 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = Cert.KernelIdeal.Cell.resI m c := by
  rw [Cert.ReferenceIdeal.RefValue.ref_i]; rfl

/-- The reference's forget gate, as a stage of the kernel program's arguments, is the kernel program's. -/
theorem same_f (m : (ℓ : Loc Cert.KernelIdeal.nD Cert.KernelIdeal.τ Cert.KernelIdeal.sig) → Buf (Elt Ideal) ℓ) (c : Dev Cert.KernelIdeal.nD) :
    Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = Cert.KernelIdeal.Cell.resF m c := by
  rw [Cert.ReferenceIdeal.RefValue.ref_f]; rfl

/-- The reference's candidate, as a stage of the kernel program's arguments, is the kernel program's. -/
theorem same_g (m : (ℓ : Loc Cert.KernelIdeal.nD Cert.KernelIdeal.τ Cert.KernelIdeal.sig) → Buf (Elt Ideal) ℓ) (c : Dev Cert.KernelIdeal.nD) :
    Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = Cert.KernelIdeal.Cell.resG m c := by
  rw [Cert.ReferenceIdeal.RefValue.ref_g]; rfl

/-- The reference's output gate, as a stage of the kernel program's arguments, is the kernel program's. -/
theorem same_o (m : (ℓ : Loc Cert.KernelIdeal.nD Cert.KernelIdeal.τ Cert.KernelIdeal.sig) → Buf (Elt Ideal) ℓ) (c : Dev Cert.KernelIdeal.nD) :
    Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) = Cert.KernelIdeal.Cell.resO m c := by
  rw [Cert.ReferenceIdeal.RefValue.ref_o]; rfl

set_option maxHeartbeats 2000000 in
/-- On the extended reals the kernel program's six results and the reference's are the same arrays: each is the
    specification's array of the arguments, the weights stacked and the biases joined. -/
theorem algebraic : Cert.algebraic_KernelIdeal_ReferenceIdeal := by
  intro m ρ m' ρ' _ hagree
  refine ⟨Cert.KernelIdeal.Cell.resH m, Cert.KernelIdeal.Cell.resC m, Cert.KernelIdeal.Cell.resI m, Cert.KernelIdeal.Cell.resF m, Cert.KernelIdeal.Cell.resG m, Cert.KernelIdeal.Cell.resO m, Cert.KernelIdeal.Cell.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  obtain ⟨h0, h1, h2, h3, h4, h5, hrest⟩ := h c
  refine ⟨h0.trans ((Cert.ReferenceIdeal.Read.val_main_v38_eq m' c).trans ?_), h1.trans ((Cert.ReferenceIdeal.Read.val_main_v36_eq m' c).trans ?_),
    h2.trans ((Cert.ReferenceIdeal.Read.val_main_v20_eq _ _ _ _ _ _ _ _ _ _ _ _ _ _).trans ?_), h3.trans ((Cert.ReferenceIdeal.Read.val_main_v26_eq _ _ _ _ _ _ _ _ _ _ _ _ _ _).trans ?_),
    h4.trans ((Cert.ReferenceIdeal.Read.val_main_v27_eq _ _ _ _ _ _ _ _ _ _ _ _ _ _).trans ?_), h5.trans ((Cert.ReferenceIdeal.Read.val_main_v33_eq _ _ _ _ _ _ _ _ _ _ _ _ _ _).trans ?_), hrest⟩
  · rw [a0, a1, a2, a3, a4, a5, a6, a7, a8, a9, a10, a11, a12, a13, a14]; exact same_h m c
  · rw [a0, a1, a2, a3, a4, a5, a6, a7, a8, a9, a10, a11, a12, a13, a14]; exact same_c m c
  · rw [a0, a1, a3, a4, a5, a6, a7, a8, a9, a10, a11, a12, a13, a14]; exact same_i m c
  · rw [a0, a1, a3, a4, a5, a6, a7, a8, a9, a10, a11, a12, a13, a14]; exact same_f m c
  · rw [a0, a1, a3, a4, a5, a6, a7, a8, a9, a10, a11, a12, a13, a14]; exact same_g m c
  · rw [a0, a1, a3, a4, a5, a6, a7, a8, a9, a10, a11, a12, a13, a14]; exact same_o m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
